-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S16 .f32) (main_arg6 : FVec F S16x8 .f32) (main_arg7 : FVec F S8 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x8 .f32 := Host.absf main_arg6
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S32x16 .f32) (main_arg5 : FVec F S16 .f32) (main_arg6 : FVec F S16x8 .f32) (main_arg7 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x128 : Shape := ⟨2, ![5000, 128]⟩
abbrev S5000x32 : Shape := ⟨2, ![5000, 32]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩
abbrev S1x8 : Shape := ⟨2, ![1, 8]⟩
abbrev S100000x8 : Shape := ⟨2, ![100000, 8]⟩
abbrev S5000x8 : Shape := ⟨2, ![5000, 8]⟩
abbrev S5000 : Shape := ⟨1, ![5000]⟩
abbrev S5000x1 : Shape := ⟨2, ![5000, 1]⟩

abbrev nBuf : Space → Nat
  | .hbm => 86
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x1, .f32⟩
  | .hbm, ⟨77, _⟩ => ⟨S3300000x16, .f32⟩
  | .hbm, ⟨78, _⟩ => ⟨S3300000x16, .f32⟩
  | .hbm, ⟨79, _⟩ => ⟨S_, .f32⟩
  | .hbm, ⟨80, _⟩ => ⟨S100000x16, .f32⟩
  | .hbm, ⟨81, _⟩ => ⟨S3300000x1, .i32⟩
  | .hbm, ⟨82, _⟩ => ⟨S100000x16, .f32⟩
  | .hbm, ⟨83, _⟩ => ⟨S1x16, .f32⟩
  | .hbm, ⟨84, _⟩ => ⟨S1x8, .f32⟩
  | .hbm, ⟨85, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S16x8, .f32⟩
  | .local _ .vmem, ⟨15, _⟩ => ⟨S1x8, .f32⟩
  | .local _ .vmem, ⟨16, _⟩ => ⟨S5000x8, .f32⟩
  | .local _ .vmem, ⟨17, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S8_S1x8 : S8.ShapeCasts S1x8
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x8_S5000x8_1_0_0_1_n_n_wf : DotDims.WF S5000x16 S16x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x8.size a ≤ S16x8.size a
  hwx2_2 : ∀ i : grid2.Coords, EltTy.bits .f32 = 32 ∨ (Rect.block (s := S16x8) S16x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x8.size a ≤ S100000x8.size a
  hwx2_4 : ∀ i : grid2.Coords, EltTy.bits .f32 = 32 ∨ (Rect.block (s := S100000x8) S5000x8.size (cc2_transform_4 i) (hinb2_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S1x8 : Shape := ⟨2, ![1, 8]⟩
abbrev S100000x1 : Shape := ⟨2, ![100000, 1]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x32, .f32⟩
  | .hbm, ⟨58, _⟩ => ⟨S3300000x1, .f32⟩
  | .hbm, ⟨59, _⟩ => ⟨S3300000x32, .f32⟩
  | .hbm, ⟨60, _⟩ => ⟨S3300000x32, .f32⟩
  | .hbm, ⟨61, _⟩ => ⟨S_, .f32⟩
  | .hbm, ⟨62, _⟩ => ⟨S100000x32, .f32⟩
  | .hbm, ⟨63, _⟩ => ⟨S3300000x1, .i32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x16, .f32⟩
  | .hbm, ⟨81, _⟩ => ⟨S3300000x1, .f32⟩
  | .hbm, ⟨82, _⟩ => ⟨S3300000x16, .f32⟩
  | .hbm, ⟨83, _⟩ => ⟨S3300000x16, .f32⟩
  | .hbm, ⟨84, _⟩ => ⟨S_, .f32⟩
  | .hbm, ⟨85, _⟩ => ⟨S100000x16, .f32⟩
  | .hbm, ⟨86, _⟩ => ⟨S3300000x1, .i32⟩
  | .hbm, ⟨87, _⟩ => ⟨S100000x16, .f32⟩
  | .hbm, ⟨88, _⟩ => ⟨S1x16, .f32⟩
  | .hbm, ⟨89, _⟩ => ⟨S100000x16, .f32⟩
  | .hbm, ⟨90, _⟩ => ⟨S100000x16, .f32⟩
  | .hbm, ⟨91, _⟩ => ⟨S_, .f32⟩
  | .hbm, ⟨92, _⟩ => ⟨S100000x16, .f32⟩
  | .hbm, ⟨93, _⟩ => ⟨S100000x16, .f32⟩
  | .hbm, ⟨94, _⟩ => ⟨S100000x8, .f32⟩
  | .hbm, ⟨95, _⟩ => ⟨S1x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x8, .f32⟩
  | .hbm, ⟨105, _⟩ => ⟨S100000x8, .f32⟩
  | .hbm, ⟨106, _⟩ => ⟨S100000x8, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x8, .f32⟩
  | .hbm, ⟨112, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf

class Facts : Prop extends Facts₀ where

variable [Facts]
-- ==== Proof.KernelRun.lean ====
/-
  The idealized kernel's run with its result named. The program is three pipelined regions among stretches of host
  operations; the generated frame certificate follows the buffer contents through them as a fold W0, W1, …, W8 (a host
  stretch applies its operations, a region replaces its output array by what its write-backs leave) and states every
  stretch and region as a segment between those boundaries. Its own launch keeps only "the arguments end as launched".
  Here the segments are launched once more, with the library's theorem for a run of regions among host stretches, and the last boundary is read against the final state
  at the result buffer too: every execution terminates with the result array holding the last fold's contents at that
  buffer, and with the arguments unchanged.
-/
import proofs.«159459_j77163382440451_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final state is asked: every unscoped buffer of the core holds the last boundary's contents. -/
abbrev atLast (c : Dev nD) (s : MemSt nD τ sig (Elt F)) : Prop :=
  ∀ b ∈ Pipeline.ucRefs τ sig, s.mem (((c : Thread nD τ)).1, b) = W8 m ρ c b

/-- The launch deals the pipelines' ghost state and nothing else: no core has a resource of its own. -/
theorem launch_element :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Htok
  imodintro
  isplitl [Htok]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Htok
  · iapply (show (BI.emp : sProp 𝕄) ⊢ bigSep Finset.univ (fun _ : Dev nD => (BI.emp : sProp 𝕄)) from by rw [BI.bigSep_emp_const])
    iempintro

/-- The last thread state read against a final state: the buffers it holds whole are the memory's. -/
theorem final_read (c : Dev nD) (s' : Phys nD τ sig (Elt F)) :
    iprop(Tₙ m ρ c ∗ SI s') ⊢ |={Set.univ}=> (iprop(⌜atLast m ρ c s'.mem⌝ ∗ SI s') : sProp 𝕄) := by
  iintro ⟨⟨Hheld, -⟩, Hsi⟩
  unfold StableHlo.held
  imodintro
  iapply (pointsTo_read_all (Pipeline.ucRefs τ sig) (fun b => (((c : Thread nD τ)).1, b)) (W8 m ρ c) s')
  isplitl [Hheld] <;> iassumption

-- the launch theorem's implicit arguments are found by unifying its conclusion with this statement, which needs plain
-- definitions unfolded in a type
set_option backward.isDefEq.respectTransparency.types false in
/-- Every weakly fair execution of the kernel program terminates without a fault; the result array then holds the
    contents the last boundary of the fold gives it, and every argument array what it was launched with. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit (pcfgs (F := F)) adm (pdats m ρ) () cellOf_inj emb₁ defs₀ 𝒱₀ L lv m ρ main (segs m ρ)
    (fun c Q => by rw [main_run m ρ c]) ?nodup (O₀ := 0) (hL := fun _ _ => rfl) (G := fun _ => iprop(emp))
    (u₀ := initOf (Pipeline.cells cfgs cellOf_inj) (Pipeline.launchToks cfgs cellOf_inj)) (hu₀ := launch_element)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := ?init) (QY := atLast m ρ) (hfin := final_read m ρ) (hQ := ?read)
  case nodup =>
    -- each of the three pipelines is entered once
    simp only [segs, Pipeline.Seg.pipes_host, Pipeline.Seg.pipes_region, Pipeline.Seg.pipes_nil]; decide
  case init =>
    -- the first thread state, core by core: the unscoped buffers at their launch contents, the generator register,
    -- and the core owing nothing
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hheld, -, Howes, -, Hprng, -⟩, -⟩
    imodintro
    isplitl [Hheld]; · iexact Hheld
    isplitl [Hprng]; · iexists _; iexact Hprng
    iexists ∅; iexact Howes
  case read =>
    -- the result buffer and the eight arguments are unscoped; the arguments' last contents are their launch contents
    intro s h c
    exact ⟨h c _ (mem_uc main_v61 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c)⟩

end Cert.KernelIdeal.Run

end
-- ==== Proof.RefOps.lean ====
/-
  The reference's three dense stages written as plain compositions of its host operations, each a function of
  the array the previous graph-aggregation produced and of the layer's parameters:

    dense0 x w            = x · w                                   (rows of x against the columns of w)
    dense1 a b w          = max (a + b, 0) · w                      (b added to every row of a)
    classify a b w bc     = logSoftmax (max (a + b, 0) · w + bc)    (row-wise, over the eight classes)

  where  logSoftmax z = (z − m) − log Σ exp (z − m)  with  m = max (−∞, max over the row of z).
  These are exactly the operations the reference applies between its gathers and scatter-adds; the aggregation
  steps themselves are not opened anywhere.
-/
import proofs.«159459_j77163382440451_1_alg».proof.Proof.Gen.ReferenceIdeal

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- x · w : the first layer's linear map. -/
def dense0 (x : (⟨S100000x128, .f32⟩ : BufTy).Contents (Elt F)) (w : (⟨S128x32, .f32⟩ : BufTy).Contents (Elt F)) :
    (⟨S100000x32, .f32⟩ : BufTy).Contents (Elt F) :=
  Host.dotGeneral dot_S100000x128_S128x32_S100000x32_1_0_0_1_n_n none x w

/-- a + b with b added to every row, clamped below at zero (32 columns). -/
def relu32 (a : (⟨S100000x32, .f32⟩ : BufTy).Contents (Elt F)) (b : (⟨S32, .f32⟩ : BufTy).Contents (Elt F)) :
    (⟨S100000x32, .f32⟩ : BufTy).Contents (Elt F) :=
  maximumf (addf a (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- max (a + b, 0) · w : the second layer's linear map after the first layer's bias and clamp. -/
def dense1 (a : (⟨S100000x32, .f32⟩ : BufTy).Contents (Elt F)) (b : (⟨S32, .f32⟩ : BufTy).Contents (Elt F))
    (w : (⟨S32x16, .f32⟩ : BufTy).Contents (Elt F)) : (⟨S100000x16, .f32⟩ : BufTy).Contents (Elt F) :=
  Host.dotGeneral dot_S100000x32_S32x16_S100000x16_1_0_0_1_n_n none (relu32 a b) w

/-- a + b with b added to every row, clamped below at zero (16 columns). -/
def relu16 (a : (⟨S100000x16, .f32⟩ : BufTy).Contents (Elt F)) (b : (⟨S16, .f32⟩ : BufTy).Contents (Elt F)) :
    (⟨S100000x16, .f32⟩ : BufTy).Contents (Elt F) :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- max (a + b, 0) · w + bc : the class scores. -/
def logits (a : (⟨S100000x16, .f32⟩ : BufTy).Contents (Elt F)) (b : (⟨S16, .f32⟩ : BufTy).Contents (Elt F))
    (w : (⟨S16x8, .f32⟩ : BufTy).Contents (Elt F)) (bc : (⟨S8, .f32⟩ : BufTy).Contents (Elt F)) :
    (⟨S100000x8, .f32⟩ : BufTy).Contents (Elt F) :=
  addf (Host.dotGeneral dot_S100000x16_S16x8_S100000x8_1_0_0_1_n_n none (relu16 a b) w)
    (broadcastInDim S100000x8 ![0, 1] bcast_S1x8_S100000x8_0_1 (broadcastInDim S1x8 ![1] bcast_S8_S1x8_1 bc))

/-- The row maximum, joined once more with −∞. -/
def rowMax (z : (⟨S100000x8, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf z (constant S_ .f32 0xFF800000#32) reducesTo_S100000x8_S100000_d1 h_S_)

/-- z minus its row maximum. -/
def shifted (z : (⟨S100000x8, .f32⟩ : BufTy).Contents (Elt F)) : (⟨S100000x8, .f32⟩ : BufTy).Contents (Elt F) :=
  subf z (broadcastInDim S100000x8 ![0, 1] bcast_S100000x1_S100000x8_0_1 (broadcastInDim S100000x1 ![0] bcast_S100000_S100000x1_0 (rowMax z)))

/-- The row-wise log-softmax: the shifted scores minus the logarithm of the row sum of their exponentials. -/
def logSoftmax (z : (⟨S100000x8, .f32⟩ : BufTy).Contents (Elt F)) : (⟨S100000x8, .f32⟩ : BufTy).Contents (Elt F) :=
  subf (shifted z)
    (broadcastInDim S100000x8 ![0, 1] bcast_S100000x1_S100000x8_0_1
      (Host.log (broadcastInDim S100000x1 ![0] bcast_S100000_S100000x1_0
        (Host.reduceAdd (Host.exp (shifted z)) (constant S_ .f32 0x00000000#32) reducesTo_S100000x8_S100000_d1 h_S_))))

/-- logSoftmax (max (a + b, 0) · w + bc). -/
def classify (a : (⟨S100000x16, .f32⟩ : BufTy).Contents (Elt F)) (b : (⟨S16, .f32⟩ : BufTy).Contents (Elt F))
    (w : (⟨S16x8, .f32⟩ : BufTy).Contents (Elt F)) (bc : (⟨S8, .f32⟩ : BufTy).Contents (Elt F)) :
    (⟨S100000x8, .f32⟩ : BufTy).Contents (Elt F) :=
  logSoftmax (logits a b w bc)

end Cert.ReferenceIdeal.Ops

end
-- ==== Proof.RefGraph.lean ====
/-
  The graph side of the network, which both programs compute with the very same host operations: from the edge list
  e : [2, 3200000] (row 0 the sources, row 1 the destinations)

    src e, dst e     the edge ends with one self-loop per node appended (3300000 entries each)
    wrap s           an index vector with negative entries moved up by the node count (how x[idx] reads its indices)
    deg d            the number of edges arriving at each node: a scatter-add of ones along d
    dinv d           1/sqrt (deg) where the degree is positive, else 0
    norm s d         the per-edge weight dinv[s] · dinv[d]
    agg h s d n      the normalised neighbourhood sum: rows of h gathered along s, scaled by n, scatter-added along d

  and the whole network as the composition  classify (agg (dense1 (agg (dense0 x W1)) b1 W2)) b2 Wc bc.
  Nothing here is opened by the proof: the two programs agree on these steps operation for operation, and only the
  dense stages between them differ.
-/
import proofs.«159459_j77163382440451_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The edge sources followed by every node once. -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000 : (⟨S3200000, .i32⟩ : BufTy).Contents (Elt F))⟩,
    ⟨S100000, (iotaInDim S100000 32 0 : (⟨S100000, .i32⟩ : BufTy).Contents (Elt F))⟩] concatenates_S3200000_S100000_S3300000_d0

/-- The edge destinations followed by every node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000 : (⟨S3200000, .i32⟩ : BufTy).Contents (Elt F))⟩,
    ⟨S100000, (iotaInDim S100000 32 0 : (⟨S100000, .i32⟩ : BufTy).Contents (Elt F))⟩] concatenates_S3200000_S100000_S3300000_d0

/-- Negative indices moved up by the number of nodes. -/
def wrap (s : (⟨S3300000, .i32⟩ : BufTy).Contents (Elt F)) : (⟨S3300000, .i32⟩ : BufTy).Contents (Elt F) :=
  select (cmpi .slt s (broadcastInDim S3300000 ![] bcast_S_S3300000 (constantI S_ 32 0#32)))
    (addi s (broadcastInDim S3300000 ![] bcast_S_S3300000 (constantI S_ 32 100000#32))) s

/-- An index vector as a one-column matrix of start indices. -/
def col (s : (⟨S3300000, .i32⟩ : BufTy).Contents (Elt F)) : (⟨S3300000x1, .i32⟩ : BufTy).Contents (Elt F) :=
  broadcastInDim S3300000x1 ![0] bcast_S3300000_S3300000x1_0 s

/-- The in-degree of every node, self-loop included. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32)) (col d)
    (broadcastInDim S3300000 ![] bcast_S_S3300000 (constant S_ .f32 0x3F800000#32))

/-- 1/sqrt (degree) where the degree is positive, 0 elsewhere. -/
def dinv (d : (⟨S3300000, .i32⟩ : BufTy).Contents (Elt F)) : (⟨S100000, .f32⟩ : BufTy).Contents (Elt F) :=
  select (cmpf (F := F) .ogt (deg d) (broadcastInDim S100000 ![] bcast_S_S100000 (constant S_ .f32 0x00000000#32)))
    (Host.rsqrt (deg d))
    (broadcastInDim S100000 ![] bcast_S_S100000 (id (constant S_ .f32 0x00000000#32)))

/-- The symmetric normalisation weight of every edge. -/
def norm (s d : (⟨S3300000, .i32⟩ : BufTy).Contents (Elt F)) : (⟨S3300000, .f32⟩ : BufTy).Contents (Elt F) :=
  mulf (Host.gather gather_S100000_S3300000x1_S3300000_n_0_n_n_0_1_1 (dinv d) (col (wrap s)))
    (Host.gather gather_S100000_S3300000x1_S3300000_n_0_n_n_0_1_1 (dinv d) (col (wrap d)))

/-- The normalised neighbourhood sum of 32-column rows. -/
def agg32 (h : (⟨S100000x32, .f32⟩ : BufTy).Contents (Elt F)) (s d : (⟨S3300000, .i32⟩ : BufTy).Contents (Elt F))
    (n : (⟨S3300000, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant S_ .f32 0x00000000#32)) (col d)
    (mulf (Host.gather gather_S100000x32_S3300000x1_S3300000x32_1_0_n_n_0_1_132 h (col (wrap s)))
      (broadcastInDim S3300000x32 ![0, 1] bcast_S3300000x1_S3300000x32_0_1 (broadcastInDim S3300000x1 ![0] bcast_S3300000_S3300000x1_0 n)))

/-- The normalised neighbourhood sum of 16-column rows. -/
def agg16 (h : (⟨S100000x16, .f32⟩ : BufTy).Contents (Elt F)) (s d : (⟨S3300000, .i32⟩ : BufTy).Contents (Elt F))
    (n : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32)) (col d)
    (mulf (Host.gather gather_S100000x16_S3300000x1_S3300000x16_1_0_n_n_0_1_116 h (col (wrap s)))
      (broadcastInDim S3300000x16 ![0, 1] bcast_S3300000x1_S3300000x16_0_1 (broadcastInDim S3300000x1 ![0] bcast_S3300000_S3300000x1_0 n)))

/-- The whole network on the reference's operations. -/
def network (x : (⟨S100000x128, .f32⟩ : BufTy).Contents (Elt F)) (e : (⟨S2x3200000, .i32⟩ : BufTy).Contents (Elt F))
    (w1 : (⟨S128x32, .f32⟩ : BufTy).Contents (Elt F)) (b1 : (⟨S32, .f32⟩ : BufTy).Contents (Elt F))
    (w2 : (⟨S32x16, .f32⟩ : BufTy).Contents (Elt F)) (b2 : (⟨S16, .f32⟩ : BufTy).Contents (Elt F))
    (wc : (⟨S16x8, .f32⟩ : BufTy).Contents (Elt F)) (bc : (⟨S8, .f32⟩ : BufTy).Contents (Elt F)) :
    (⟨S100000x8, .f32⟩ : BufTy).Contents (Elt F) :=
  classify (agg16 (dense1 (agg32 (dense0 x w1) (src e) (dst e) (norm (src e) (dst e))) b1 w2) (src e) (dst e) (norm (src e) (dst e))) b2 wc bc

end Cert.ReferenceIdeal.Ops

end
-- ==== Proof.KernelStretch.lean ====
/-
  The host stretches of the idealized kernel program, read as functions of the buffer contents they start from.
  Between its three regions the kernel program applies to the regions' results exactly the graph operations the
  reference applies (the gather along the edge sources, the scaling by the edge weights, the scatter-add along the
  edge destinations), and before the first region it computes the same edge ends and edge weights from the edge list.
  Each lemma reads one buffer after one stretch, from an arbitrary valuation W of the buffers before it: a buffer the
  stretch writes, as the shared graph function of W at the buffers the stretch reads; a buffer it does not write, as
  W there.
-/
import proofs.«159459_j77163382440451_1_alg».proof.Proof.Gen.KernelIdeal.Launch
import proofs.«159459_j77163382440451_1_alg».proof.Proof.RefGraph

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-! ## Before the first region: the edge ends and the edge weights (three stretches in a row) -/

set_option maxHeartbeats 8000000 in
/-- The edge sources with the self-loops appended. -/
theorem pre_src (W : Valuation τ sig (Elt F)) :
    (StableHlo.after hostOps0_2 (StableHlo.after hostOps0_1 (StableHlo.after hostOps0 W))) (Proc.devRef .tc main_v3) = Cert.ReferenceIdeal.Ops.src (W (Proc.devRef .tc main_arg1)) := by
  after_results_simp
  rfl

set_option maxHeartbeats 8000000 in
/-- The edge destinations with the self-loops appended. -/
theorem pre_dst (W : Valuation τ sig (Elt F)) :
    (StableHlo.after hostOps0_2 (StableHlo.after hostOps0_1 (StableHlo.after hostOps0 W))) (Proc.devRef .tc main_v6) = Cert.ReferenceIdeal.Ops.dst (W (Proc.devRef .tc main_arg1)) := by
  after_results_simp
  rfl

set_option maxHeartbeats 8000000 in
/-- The symmetric normalisation weight of every edge. -/
theorem pre_norm (W : Valuation τ sig (Elt F)) :
    (StableHlo.after hostOps0_2 (StableHlo.after hostOps0_1 (StableHlo.after hostOps0 W))) (Proc.devRef .tc main_v29)
      = Cert.ReferenceIdeal.Ops.norm (Cert.ReferenceIdeal.Ops.src (W (Proc.devRef .tc main_arg1))) (Cert.ReferenceIdeal.Ops.dst (W (Proc.devRef .tc main_arg1))) := by
  after_results_simp
  rfl

set_option maxHeartbeats 8000000 in
/-- The three stretches before the first region do not write the argument `main_arg0`. -/
theorem pre_arg0 (W : Valuation τ sig (Elt F)) :
    (StableHlo.after hostOps0_2 (StableHlo.after hostOps0_1 (StableHlo.after hostOps0 W))) (Proc.devRef .tc main_arg0) = W (Proc.devRef .tc main_arg0) := by
  after_results_simp

set_option maxHeartbeats 8000000 in
/-- The three stretches before the first region do not write the argument `main_arg2`. -/
theorem pre_arg2 (W : Valuation τ sig (Elt F)) :
    (StableHlo.after hostOps0_2 (StableHlo.after hostOps0_1 (StableHlo.after hostOps0 W))) (Proc.devRef .tc main_arg2) = W (Proc.devRef .tc main_arg2) := by
  after_results_simp

set_option maxHeartbeats 8000000 in
/-- The three stretches before the first region do not write the argument `main_arg3`. -/
theorem pre_arg3 (W : Valuation τ sig (Elt F)) :
    (StableHlo.after hostOps0_2 (StableHlo.after hostOps0_1 (StableHlo.after hostOps0 W))) (Proc.devRef .tc main_arg3) = W (Proc.devRef .tc main_arg3) := by
  after_results_simp

set_option maxHeartbeats 8000000 in
/-- The three stretches before the first region do not write the argument `main_arg4`. -/
theorem pre_arg4 (W : Valuation τ sig (Elt F)) :
    (StableHlo.after hostOps0_2 (StableHlo.after hostOps0_1 (StableHlo.after hostOps0 W))) (Proc.devRef .tc main_arg4) = W (Proc.devRef .tc main_arg4) := by
  after_results_simp

set_option maxHeartbeats 8000000 in
/-- The three stretches before the first region do not write the argument `main_arg5`. -/
theorem pre_arg5 (W : Valuation τ sig (Elt F)) :
    (StableHlo.after hostOps0_2 (StableHlo.after hostOps0_1 (StableHlo.after hostOps0 W))) (Proc.devRef .tc main_arg5) = W (Proc.devRef .tc main_arg5) := by
  after_results_simp

set_option maxHeartbeats 8000000 in
/-- The three stretches before the first region do not write the argument `main_arg6`. -/
theorem pre_arg6 (W : Valuation τ sig (Elt F)) :
    (StableHlo.after hostOps0_2 (StableHlo.after hostOps0_1 (StableHlo.after hostOps0 W))) (Proc.devRef .tc main_arg6) = W (Proc.devRef .tc main_arg6) := by
  after_results_simp

set_option maxHeartbeats 8000000 in
/-- The three stretches before the first region do not write the argument `main_arg7`. -/
theorem pre_arg7 (W : Valuation τ sig (Elt F)) :
    (StableHlo.after hostOps0_2 (StableHlo.after hostOps0_1 (StableHlo.after hostOps0 W))) (Proc.devRef .tc main_arg7) = W (Proc.devRef .tc main_arg7) := by
  after_results_simp

/-! ## Between the first and the second region -/

set_option maxHeartbeats 8000000 in
/-- The normalised neighbourhood sum of the first region's rows. -/
theorem s1_agg (W : Valuation τ sig (Elt F)) :
    StableHlo.after hostOps1 W (Proc.devRef .tc main_v43)
      = Cert.ReferenceIdeal.Ops.agg32 (W (Proc.devRef .tc main_v30)) (W (Proc.devRef .tc main_v3)) (W (Proc.devRef .tc main_v6)) (W (Proc.devRef .tc main_v29)) := by
  after_results_simp
  rfl

set_option maxHeartbeats 8000000 in
/-- The first bias as a one-row matrix. -/
theorem s1_bias (W : Valuation τ sig (Elt F)) :
    StableHlo.after hostOps1 W (Proc.devRef .tc main_v44) = shapeCast S1x32 (W (Proc.devRef .tc main_arg3)) shapeCasts_S32_S1x32 := by
  after_results_simp
  rfl

set_option maxHeartbeats 8000000 in
/-- The stretch between the first two regions does not write `main_v3`. -/
theorem s1_v3 (W : Valuation τ sig (Elt F)) :
    StableHlo.after hostOps1 W (Proc.devRef .tc main_v3) = W (Proc.devRef .tc main_v3) := by
  after_results_simp

set_option maxHeartbeats 8000000 in
/-- The stretch between the first two regions does not write `main_v6`. -/
theorem s1_v6 (W : Valuation τ sig (Elt F)) :
    StableHlo.after hostOps1 W (Proc.devRef .tc main_v6) = W (Proc.devRef .tc main_v6) := by
  after_results_simp

set_option maxHeartbeats 8000000 in
/-- The stretch between the first two regions does not write `main_v29`. -/
theorem s1_v29 (W : Valuation τ sig (Elt F)) :
    StableHlo.after hostOps1 W (Proc.devRef .tc main_v29) = W (Proc.devRef .tc main_v29) := by
  after_results_simp

set_option maxHeartbeats 8000000 in
/-- The stretch between the first two regions does not write `main_arg4`. -/
theorem s1_arg4 (W : Valuation τ sig (Elt F)) :
    StableHlo.after hostOps1 W (Proc.devRef .tc main_arg4) = W (Proc.devRef .tc main_arg4) := by
  after_results_simp

set_option maxHeartbeats 8000000 in
/-- The stretch between the first two regions does not write `main_arg5`. -/
theorem s1_arg5 (W : Valuation τ sig (Elt F)) :
    StableHlo.after hostOps1 W (Proc.devRef .tc main_arg5) = W (Proc.devRef .tc main_arg5) := by
  after_results_simp

set_option maxHeartbeats 8000000 in
/-- The stretch between the first two regions does not write `main_arg6`. -/
theorem s1_arg6 (W : Valuation τ sig (Elt F)) :
    StableHlo.after hostOps1 W (Proc.devRef .tc main_arg6) = W (Proc.devRef .tc main_arg6) := by
  after_results_simp

set_option maxHeartbeats 8000000 in
/-- The stretch between the first two regions does not write `main_arg7`. -/
theorem s1_arg7 (W : Valuation τ sig (Elt F)) :
    StableHlo.after hostOps1 W (Proc.devRef .tc main_arg7) = W (Proc.devRef .tc main_arg7) := by
  after_results_simp

/-! ## Between the second and the third region -/

set_option maxHeartbeats 8000000 in
/-- The normalised neighbourhood sum of the second region's rows. -/
theorem s2_agg (W : Valuation τ sig (Elt F)) :
    StableHlo.after hostOps2 W (Proc.devRef .tc main_v58)
      = Cert.ReferenceIdeal.Ops.agg16 (W (Proc.devRef .tc main_v45)) (W (Proc.devRef .tc main_v3)) (W (Proc.devRef .tc main_v6)) (W (Proc.devRef .tc main_v29)) := by
  after_results_simp
  rfl

set_option maxHeartbeats 8000000 in
/-- The second bias as a one-row matrix. -/
theorem s2_bias (W : Valuation τ sig (Elt F)) :
    StableHlo.after hostOps2 W (Proc.devRef .tc main_v59) = shapeCast S1x16 (W (Proc.devRef .tc main_arg5)) shapeCasts_S16_S1x16 := by
  after_results_simp
  rfl

set_option maxHeartbeats 8000000 in
/-- The classifier's bias as a one-row matrix. -/
theorem s2_cbias (W : Valuation τ sig (Elt F)) :
    StableHlo.after hostOps2 W (Proc.devRef .tc main_v60) = shapeCast S1x8 (W (Proc.devRef .tc main_arg7)) shapeCasts_S8_S1x8 := by
  after_results_simp
  rfl

set_option maxHeartbeats 8000000 in
/-- The stretch between the last two regions does not write `main_arg6`. -/
theorem s2_arg6 (W : Valuation τ sig (Elt F)) :
    StableHlo.after hostOps2 W (Proc.devRef .tc main_arg6) = W (Proc.devRef .tc main_arg6) := by
  after_results_simp

end Cert.KernelIdeal.Stretch

end
-- ==== Proof.GcnRow.lean ====
/-
  A bias vector that travels as a one-row matrix: the row of a [1, n] array as a vector of length n,
  and the fact that reshaping a length-n vector to [1, n] and taking that row gives the vector back.
-/
import Idealize.ShloMosaic.Lib.ValueIdx
import Idealize.ShloMosaic.Lib.Pipeline.Value
import Idealize.ShloMosaic.Lib.ValueLayout

noncomputable section

namespace Gcn

open Idealize.ShloMosaic Idealize.ShloMosaic.ValueIdx

/-- The single row of a one-row matrix, as a vector. -/
def row {n : Nat} (b2 : (⟨2, ![1, n]⟩ : Shape).Idx → EReal) : (⟨1, ![n]⟩ : Shape).Idx → EReal :=
  fun j => b2 (ix2 (0 : Fin 1) (j 0))

/-- A vector reshaped to one row, read back as that row, is the vector. -/
theorem row_reshape {n : Nat} (b : (⟨1, ![n]⟩ : Shape).Idx → EReal) (h : (⟨1, ![n]⟩ : Shape).ShapeCasts ⟨2, ![1, n]⟩) :
    row (shapeCast ⟨2, ![1, n]⟩ b h) = b := by
  funext j
  unfold row
  rw [shapeCast_a_1a_apply b h (0 : Fin 1) (j 0)]
  exact congrArg b (eq_ix1 j).symm

end Gcn

end
-- ==== Proof.Dense0.lean ====
/-
  The first layer's linear map, as one function of the feature matrix and the weight matrix:

    dense0 x w (r, j) = Σ_{k < 128} x (r, k) · w (k, j)        (r < 100000, j < 32)

  a sum of 128 products of extended reals; nothing is assumed about finiteness.
-/
import Idealize.ShloMosaic.Lib.ValueIdx
import Idealize.ShloMosaic.PureOps.Ideal

noncomputable section

open scoped BigOperators

namespace Gcn

open Idealize.ShloMosaic Idealize.ShloMosaic.ValueIdx

/-- Row `r` of `x` against column `j` of `w`. -/
def dense0 (x : (⟨2, ![100000, 128]⟩ : Shape).Idx → EReal) (w : (⟨2, ![128, 32]⟩ : Shape).Idx → EReal) :
    (⟨2, ![100000, 32]⟩ : Shape).Idx → EReal :=
  fun i => ∑ k : Fin 128, x (ix2 (⟨(i 0).val, (i 0).isLt⟩ : Fin 100000) k) * w (ix2 k (⟨(i 1).val, (i 1).isLt⟩ : Fin 32))

/-- The entry at explicit coordinates. -/
theorem dense0_apply (x : (⟨2, ![100000, 128]⟩ : Shape).Idx → EReal) (w : (⟨2, ![128, 32]⟩ : Shape).Idx → EReal)
    (r : Fin 100000) (j : Fin 32) :
    dense0 x w (ix2 r j) = ∑ k : Fin 128, x (ix2 r k) * w (ix2 k j) := rfl

end Gcn

end
-- ==== Proof.Dense0Pay.lean ====
/-
  What one grid point of the first layer computes, entry by entry.  The point's body multiplies its
  [5000,128] block of x by the whole [128,32] matrix w into a zero accumulator; the narrowing of the
  operands' float format is the identity on extended reals.  So entry (p, q) of the block's result is
  the sum over k < 128 of block (p, k) · w (k, q): the contraction's index set (one contracted axis of
  extent 128) is identified with Fin 128 and the operand indices are read coordinate by coordinate.
-/
import proofs.«159459_j77163382440451_1_alg».proof.Proof.Gen.KernelIdeal.Skeleton
import Idealize.ShloMosaic.Lib.ValueIdx
import Idealize.ShloMosaic.PureOps.Ideal.Laws

noncomputable section

open scoped BigOperators

namespace Cert.KernelIdeal.Dense0

open Cert.KernelIdeal Cert.KernelIdeal.Gen Idealize.ShloMosaic Idealize.ShloMosaic.ValueIdx

/-- The dimension numbers of block · w : [5000,128] × [128,32] → [5000,32]. -/
abbrev D := dot_S5000x128_S128x32_S5000x32_1_0_0_1_n_n

/-- The left operand's index at output (p, q) and contraction coordinate k is (p, k). -/
theorem lhsIdx_eq (p : Fin 5000) (q : Fin 32) (k : Fin 128) :
    D.lhsIdx (ix2 p q) ((contrEquiv1 D 128 rfl rfl).symm k) = ix2 p k := by
  have hk := contrEquiv1_symm_val D 128 rfl rfl k
  funext a
  apply Fin.ext
  match a with
  | ⟨0, _⟩ =>
    show (D.lhsIdx (ix2 p q) _ 0).val = p.val
    unfold DotDims.lhsIdx
    rw [dif_neg (show ¬(0 : Fin S5000x128.rank) ∈ D.lhsBatch by decide),
      dif_pos (show (0 : Fin S5000x128.rank) ∈ D.lhsNonContracting by decide)]
    rfl
  | ⟨1, _⟩ =>
    show (D.lhsIdx (ix2 p q) _ 1).val = k.val
    exact (D.lhsIdx_val_of_single rfl (ix2 p q) _).trans hk

/-- The right operand's index there is (k, q). -/
theorem rhsIdx_eq (p : Fin 5000) (q : Fin 32) (k : Fin 128) :
    D.rhsIdx (ix2 p q) ((contrEquiv1 D 128 rfl rfl).symm k) = ix2 k q := by
  have hk := contrEquiv1_symm_val D 128 rfl rfl k
  funext a
  apply Fin.ext
  match a with
  | ⟨0, _⟩ =>
    show (D.rhsIdx (ix2 p q) _ 0).val = k.val
    exact (D.rhsIdx_val_of_single rfl (ix2 p q) _).trans hk
  | ⟨1, _⟩ =>
    show (D.rhsIdx (ix2 p q) _ 1).val = q.val
    unfold DotDims.rhsIdx
    rw [dif_neg (show ¬(1 : Fin S128x32.rank) ∈ D.rhsBatch by decide),
      dif_pos (show (1 : Fin S128x32.rank) ∈ D.rhsNonContracting by decide)]
    rfl

/-- Entry (p, q) of what a point stores: the row p of its block of x against column q of w. -/
theorem pay_apply (x0 : Vec Ideal S5000x128 .f32) (x1 : Vec Ideal S128x32 .f32) (p : Fin 5000) (q : Fin 32) :
    k0_pay1 (F := Ideal) x0 x1 (ix2 p q) = ∑ k : Fin 128, x0 (ix2 p k) * x1 (ix2 k q) := by
  unfold k0_pay1
  refine (Ideal.matmul_constant_zero_apply D none (truncf .bf16 x0 bitsLt_bf16_f32) (truncf .bf16 x1 bitsLt_bf16_f32) (ix2 p q)).trans ?_
  rw [← Equiv.sum_comp (contrEquiv1 D 128 rfl rfl).symm]
  refine Finset.sum_congr rfl fun k _ => ?_
  rw [lhsIdx_eq, rhsIdx_eq]
  rfl

end Cert.KernelIdeal.Dense0

end
-- ==== Proof.Dense0Kernel.lean ====
/-
  The first layer's output array after its twenty grid points.  Point t reads rows 5000·t … 5000·t + 4999
  of x (all 128 columns) and the whole of w, and writes back rows 5000·t … 5000·t + 4999 of the result
  (all 32 columns).  Entry (p, q) of what it writes is Σ_k x (5000·t + p, k) · w (k, q), which is entry
  (5000·t + p, q) of `Gcn.dense0 x w`: each point writes its block of one and the same function of the
  two arrays.  Row r of the result lies in the block of point r / 5000, so the twenty blocks cover the
  array, and the array ends holding `Gcn.dense0 x w`.
-/
import proofs.«159459_j77163382440451_1_alg».proof.Proof.Gen.KernelIdeal.Frame
import proofs.«159459_j77163382440451_1_alg».proof.Proof.Dense0
import proofs.«159459_j77163382440451_1_alg».proof.Proof.Dense0Pay
import Idealize.ShloMosaic.Lib.Pipeline.Value

noncomputable section

open scoped BigOperators

namespace Cert.KernelIdeal.Dense0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its staging buffers from their first element. -/
theorem zero_offsets : (![0, 0] : Fin 2 → Nat) = fun _ => 0 := funext fun a => by fin_cases a <;> rfl

/-- The block indices at point t: x and the result move down their rows with t, w stays put. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point t's block of x is x (5000·t + p, k). -/
theorem xblock_apply (c : Dev nD) (t : Fin cfg0.N) (p : Fin 5000) (k : Fin 128) (r : Fin 100000)
    (hr : r.val = 5000 * t.val + p.val) :
    (iblk0 V c 0 t : Vec Ideal S5000x128 .f32) (ix2 p k) = (V c main_arg0 : S100000x128.Idx → EReal) (ix2 r k) := by
  obtain ⟨e0, e1, -⟩ := index_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's block of w is w. -/
theorem wblock_apply (c : Dev nD) (t : Fin cfg0.N) (k : Fin 128) (q : Fin 32) :
    (iblk0 V c 1 t : Vec Ideal S128x32 .f32) (ix2 k q) = (V c main_arg2 : S128x32.Idx → EReal) (ix2 k q) := by
  obtain ⟨-, -, e2, e3, -⟩ := index_facts t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 32 + 1 * q.val = q.val; rw [e3]; omega

/-- Entry (p, q) of what point t stores is entry (5000·t + p, q) of the layer's map of the two arrays. -/
theorem point_apply (c : Dev nD) (t : Fin cfg0.N) (p : Fin 5000) (q : Fin 32) (r : Fin 100000)
    (hr : r.val = 5000 * t.val + p.val) :
    k0_pay1 (F := Ideal) (iblk0 V c 0 t) (iblk0 V c 1 t) (ix2 p q)
      = Gcn.dense0 (V c main_arg0) (V c main_arg2) (ix2 r q) := by
  refine (pay_apply (iblk0 V c 0 t) (iblk0 V c 1 t) p q).trans ?_
  refine (Finset.sum_congr rfl fun k _ => ?_).trans (Gcn.dense0_apply _ _ r q).symm
  exact congrArg₂ (· * ·) (xblock_apply V c t p k r hr) (wblock_apply V c t k q)

/-- WHAT POINT t WRITES BACK is its block of `Gcn.dense0 x w`. -/
theorem flushed_eq (c : Dev nD) (t : Fin cfg0.N) :
    (dat0 V c).flushed 2 t
      = ((cfg0.win 2).blk t).view.read (Elt Ideal) (Gcn.dense0 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x32) zero_offsets]
  obtain ⟨-, -, -, -, e4, e5⟩ := index_facts t
  have hN : t.val < 20 := lt_of_lt_of_eq t.isLt N_0
  funext j
  have hj0 : (j 0).val < 5000 := (j 0).isLt
  have hj1 : (j 1).val < 32 := (j 1).isLt
  have hy : (cfg0.win 2).xinj (grid0.coords t) j = ix2 (⟨(j 0).val, hj0⟩ : Fin 5000) (⟨(j 1).val, hj1⟩ : Fin 32) := by
    funext a
    match a with
    | ⟨0, _⟩ => rfl
    | ⟨1, _⟩ => rfl
  have hemb : ((cfg0.win 2).blk t).view.emb j
      = ix2 (⟨5000 * t.val + (j 0).val, by omega⟩ : Fin 100000) (⟨(j 1).val, hj1⟩ : Fin 32) := by
    funext a
    apply Fin.ext
    match a with
    | ⟨0, _⟩ => show win0_2.index t (0 : Fin 2) * 5000 + 1 * (j 0).val = 5000 * t.val + (j 0).val; rw [e4]; omega
    | ⟨1, _⟩ => show win0_2.index t (1 : Fin 2) * 32 + 1 * (j 1).val = (j 1).val; rw [e5]; omega
  show k0_pay1 (F := Ideal) (iblk0 V c 0 t) (iblk0 V c 1 t) ((cfg0.win 2).xinj (grid0.coords t) j)
    = Gcn.dense0 (V c main_arg0) (V c main_arg2) (((cfg0.win 2).blk t).view.emb j)
  rw [hy, hemb]
  exact point_apply V c t _ _ _ rfl

/-- An index of the result is in point t's block iff each coordinate is in the block's range on its axis. -/
theorem mem_blk (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v30).slice (win0_2.rect t)).set ↔ _
  rw [View.set_slice_whole, Rect.mem_set_unit]
  exact Iff.rfl

/-- Row r of the result is written back by point r / 5000: the blocks cover the array. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := index_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 32 ≤ (i 1).val ∧ (i 1).val < win0_2.index t (1 : Fin 2) * 32 + 32
    rw [e5]; omega

/-- THE RESULT ARRAY after the twenty points is `Gcn.dense0` of x and w as the region finds them. -/
theorem final (c : Dev nD) :
    (Gen.dat0 (F := Ideal) V c).arrAt 2 cfg0.N = Gcn.dense0 (V c main_arg0) (V c main_arg2) :=
  (dat0 V c).arrAt_eq_of_cover 2 (Gcn.dense0 (V c main_arg0) (V c main_arg2)) (fun t _ => flushed_eq V c t) cover

end Cert.KernelIdeal.Dense0

end
-- ==== Proof.Dense0Ref.lean ====
/-
  The reference's first dot_general is the first layer's linear map: at output index (r, j) the host's
  contraction over the one contracted axis (axis 1 of x against axis 0 of w, extent 128) is the sum over
  k < 128 of x (r, k) · w (k, j).  The contraction's index set is identified with Fin 128, and the two
  operand indices at (r, j), k are read coordinate by coordinate.
-/
import proofs.«159459_j77163382440451_1_alg».proof.Proof.RefOps
import proofs.«159459_j77163382440451_1_alg».proof.Proof.Dense0
import Idealize.ShloMosaic.Lib.ValueIdx
import Idealize.ShloMosaic.PureOps.Ideal.Laws

noncomputable section

open scoped BigOperators

namespace Cert.ReferenceIdeal.Dense0

open Cert.ReferenceIdeal Cert.ReferenceIdeal.Gen Idealize.ShloMosaic Idealize.ShloMosaic.TcCoe Idealize.SL.Sem Idealize.ShloMosaic.StableHlo
open Idealize.ShloMosaic.ValueIdx

/-- The dimension numbers of x · w : [100000,128] × [128,32] → [100000,32]. -/
abbrev D := dot_S100000x128_S128x32_S100000x32_1_0_0_1_n_n

/-- The left operand's index at output (r, j) and contraction coordinate k is (r, k). -/
theorem lhsIdx_eq (i : S100000x32.Idx) (k : Fin 128) :
    D.lhsIdx i ((contrEquiv1 D 128 rfl rfl).symm k) = ix2 (⟨(i 0).val, (i 0).isLt⟩ : Fin 100000) k := by
  have hk := contrEquiv1_symm_val D 128 rfl rfl k
  funext a
  apply Fin.ext
  match a with
  | ⟨0, _⟩ =>
    show (D.lhsIdx i _ 0).val = (i 0).val
    unfold DotDims.lhsIdx
    rw [dif_neg (show ¬(0 : Fin S100000x128.rank) ∈ D.lhsBatch by decide),
      dif_pos (show (0 : Fin S100000x128.rank) ∈ D.lhsNonContracting by decide)]
    rfl
  | ⟨1, _⟩ =>
    show (D.lhsIdx i _ 1).val = k.val
    exact (D.lhsIdx_val_of_single rfl i _).trans hk

/-- The right operand's index there is (k, j). -/
theorem rhsIdx_eq (i : S100000x32.Idx) (k : Fin 128) :
    D.rhsIdx i ((contrEquiv1 D 128 rfl rfl).symm k) = ix2 k (⟨(i 1).val, (i 1).isLt⟩ : Fin 32) := by
  have hk := contrEquiv1_symm_val D 128 rfl rfl k
  funext a
  apply Fin.ext
  match a with
  | ⟨0, _⟩ =>
    show (D.rhsIdx i _ 0).val = k.val
    exact (D.rhsIdx_val_of_single rfl i _).trans hk
  | ⟨1, _⟩ =>
    show (D.rhsIdx i _ 1).val = (i 1).val
    unfold DotDims.rhsIdx
    rw [dif_neg (show ¬(1 : Fin S128x32.rank) ∈ D.rhsBatch by decide),
      dif_pos (show (1 : Fin S128x32.rank) ∈ D.rhsNonContracting by decide)]
    rfl

/-- The reference's x · w is `Gcn.dense0 x w`. -/
theorem ref_eq (x : (⟨S100000x128, .f32⟩ : BufTy).Contents (Elt Ideal)) (w : (⟨S128x32, .f32⟩ : BufTy).Contents (Elt Ideal)) :
    Ops.dense0 (F := Ideal) x w = Gcn.dense0 x w := by
  funext i
  unfold Ops.dense0
  simp only [Host.dotGeneral]
  rw [Ideal.dotGeneral_apply, ← Equiv.sum_comp (contrEquiv1 D 128 rfl rfl).symm]
  unfold Gcn.dense0
  refine Finset.sum_congr rfl fun k _ => ?_
  rw [lhsIdx_eq, rhsIdx_eq]

end Cert.ReferenceIdeal.Dense0

end
-- ==== Proof.Dense1.lean ====
/-
  The second dense layer as one function of its three arrays.

  For an activation array a of 100000 rows and 32 columns, a bias vector b of length 32 and a weight matrix w of
  32 rows and 16 columns, entry (r, j) of the result is

      Σ_{k < 32}  max (a (r, k) + b k, 0) · w (k, j)

  on the extended reals: the bias is added to every row, the sum is clamped below at zero, and the clamped row is
  contracted against column j of the weights.
-/
import Idealize.ShloMosaic.Lib.ValueIdx
import Idealize.ShloMosaic.PureOps.Ideal

noncomputable section

open scoped BigOperators

namespace Gcn

open Idealize.ShloMosaic Idealize.ShloMosaic.ValueIdx

/-- max (a + b, 0) · w, entry by entry. -/
def dense1 (a : (⟨2, ![100000, 32]⟩ : Shape).Idx → EReal) (b : (⟨1, ![32]⟩ : Shape).Idx → EReal)
    (w : (⟨2, ![32, 16]⟩ : Shape).Idx → EReal) : (⟨2, ![100000, 16]⟩ : Shape).Idx → EReal :=
  fun i => ∑ k : Fin 32, max (a (ix2 (i 0) k) + b (ix1 k)) 0 * w (ix2 k (i 1))

/-- The entry at row r and column j, with the coordinates named. -/
theorem dense1_apply (a : (⟨2, ![100000, 32]⟩ : Shape).Idx → EReal) (b : (⟨1, ![32]⟩ : Shape).Idx → EReal)
    (w : (⟨2, ![32, 16]⟩ : Shape).Idx → EReal) (r : Fin 100000) (j : Fin 16) :
    dense1 a b w (ix2 r j) = ∑ k : Fin 32, max (a (ix2 r k) + b (ix1 k)) 0 * w (ix2 k j) := rfl

end Gcn

end
-- ==== Proof.Dense1Payload.lean ====
/-
  What one grid point of the second dense layer stores, entry by entry.

  The body loads a block of 5000 rows of the activation array, the one-row bias and the whole weight matrix, adds the
  bias row to every row of the block, clamps at zero, and multiplies by the weights into a zero accumulator. Entry
  (p, q) of what it stores is therefore

      Σ_{k < 32}  max (x (p, k) + b (0, k), 0) · w (k, q).

  The contraction runs over one axis of extent 32, so its index is identified with k < 32, under which the left
  operand is read at (p, k) and the right one at (k, q).
-/
import proofs.«159459_j77163382440451_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Dense1

open Cert.KernelIdeal Cert.KernelIdeal.Gen Idealize.ShloMosaic Idealize.ShloMosaic.ValueIdx

/-- Left operand, row axis: the output's row. -/
theorem lhs_row (i : S5000x16.Idx) (q : dot_S5000x32_S32x16_S5000x16_1_0_0_1_n_n.contr.Idx) :
    (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide),
    dif_pos (show (0 : Fin S5000x32.rank) ∈ dot_S5000x32_S32x16_S5000x16_1_0_0_1_n_n.lhsNonContracting by decide)]
  rfl

/-- Left operand, column axis: the contraction coordinate. -/
theorem lhs_col (i : S5000x16.Idx) (q : dot_S5000x32_S32x16_S5000x16_1_0_0_1_n_n.contr.Idx) :
    (dot_S5000x32_S32x16_S5000x16_1_0_0_1_n_n.lhsIdx i q 1).val = (q ⟨0, by decide⟩).val :=
  dot_S5000x32_S32x16_S5000x16_1_0_0_1_n_n.lhsIdx_val_of_single rfl i q

/-- Right operand, row axis: the contraction coordinate. -/
theorem rhs_row (i : S5000x16.Idx) (q : dot_S5000x32_S32x16_S5000x16_1_0_0_1_n_n.contr.Idx) :
    (dot_S5000x32_S32x16_S5000x16_1_0_0_1_n_n.rhsIdx i q 0).val = (q ⟨0, by decide⟩).val :=
  dot_S5000x32_S32x16_S5000x16_1_0_0_1_n_n.rhsIdx_val_of_single rfl i q

/-- Right operand, column axis: the output's column. -/
theorem rhs_col (i : S5000x16.Idx) (q : dot_S5000x32_S32x16_S5000x16_1_0_0_1_n_n.contr.Idx) :
    (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide),
    dif_pos (show (1 : Fin S32x16.rank) ∈ dot_S5000x32_S32x16_S5000x16_1_0_0_1_n_n.rhsNonContracting by decide)]
  rfl

/-- The block matmul's left operand index at output (p, q) and contraction coordinate k is (p, k). -/
theorem lhs_idx (p : Fin 5000) (q : Fin 16) (k : Fin 32) :
    dot_S5000x32_S32x16_S5000x16_1_0_0_1_n_n.lhsIdx (ix2 p q)
        ((contrEquiv1 dot_S5000x32_S32x16_S5000x16_1_0_0_1_n_n 32 rfl rfl).symm k) = ix2 p k := by
  have hk := contrEquiv1_symm_val dot_S5000x32_S32x16_S5000x16_1_0_0_1_n_n 32 rfl rfl k
  funext a
  apply Fin.ext
  match a with
  | ⟨0, _⟩ => exact lhs_row _ _
  | ⟨1, _⟩ => exact (lhs_col _ _).trans hk

/-- The block matmul's right operand index at output (p, q) and contraction coordinate k is (k, q). -/
theorem rhs_idx (p : Fin 5000) (q : Fin 16) (k : Fin 32) :
    dot_S5000x32_S32x16_S5000x16_1_0_0_1_n_n.rhsIdx (ix2 p q)
        ((contrEquiv1 dot_S5000x32_S32x16_S5000x16_1_0_0_1_n_n 32 rfl rfl).symm k) = ix2 k q := by
  have hk := contrEquiv1_symm_val dot_S5000x32_S32x16_S5000x16_1_0_0_1_n_n 32 rfl rfl k
  funext a
  apply Fin.ext
  match a with
  | ⟨0, _⟩ => exact (rhs_row _ _).trans hk
  | ⟨1, _⟩ => exact rhs_col _ _

/-- The one-row bias block broadcast down the 5000 rows of a block, read at (p, k), is its entry (0, k). -/
theorem bias_row_apply (x1 : Vec Ideal S1x32 .f32) (p : Fin 5000) (k : Fin 32) :
    broadcastTo S5000x32 (shapeCast S1x32 x1 shapeCasts_S1x32_S1x32) broadcasts_S1x32_S5000x32 (ix2 p k)
      = x1 (ix2 (0 : Fin 1) k) := by
  rw [shapeCast_self]
  exact broadcastTo_apply x1 broadcasts_S1x32_S5000x32 (ix2 p k) (ix2 (0 : Fin 1) k) (fun a => match a with
    | ⟨0, _⟩ => by show (0 : Nat) = if (1 : Nat) = 1 then 0 else p.val; rw [if_pos rfl]
    | ⟨1, _⟩ => by show k.val = if (32 : Nat) = 1 then 0 else k.val; rw [if_neg (by decide)])

/-- The block's stored value at (p, q): the clamped biased row p of the activation block against column q of the
    weights, the matmul's zero accumulator contributing nothing and the changes of float format being the identity. -/
theorem pay_apply (x0 : Vec Ideal S5000x32 .f32) (x1 : Vec Ideal S1x32 .f32) (x2 : Vec Ideal S32x16 .f32)
    (p : Fin 5000) (q : Fin 16) :
    k1_pay1 (F := Ideal) x0 x1 x2 (ix2 p q)
      = ∑ k : Fin 32, max (x0 (ix2 p k) + x1 (ix2 (0 : Fin 1) k)) 0 * x2 (ix2 k q) := by
  unfold k1_pay1
  refine (Ideal.matmul_constant_zero_apply dot_S5000x32_S32x16_S5000x16_1_0_0_1_n_n none _ _ (ix2 p q)).trans ?_
  rw [← Equiv.sum_comp (contrEquiv1 dot_S5000x32_S32x16_S5000x16_1_0_0_1_n_n 32 rfl rfl).symm]
  refine Finset.sum_congr rfl fun k _ => ?_
  rw [lhs_idx, rhs_idx]
  rw [truncf_apply, truncf_apply, maximumf_apply, addf_apply, shapeCast_self, bias_row_apply, broadcast_apply,
    Ideal.ofBits_def, Ideal.ofBits_zero_f32]

end Cert.KernelIdeal.Dense1

end
-- ==== Proof.Dense1Kernel.lean ====
/-
  The second dense layer's output array after its region of the program, as one function of the arrays the region finds.

  The region runs 20 grid points; point t stages rows 5000·t … 5000·t + 4999 of the activation array (32 columns),
  the one-row bias and the weight matrix whole, and writes back rows 5000·t … 5000·t + 4999 of the output (16
  columns). What point t writes back is, entry by entry, the clamped biased rows of its activation block against the
  weights, and that is exactly the block of Gcn.dense1 of the whole arrays at those rows. Row r of the output is
  covered by point r / 5000, so the whole output array ends holding Gcn.dense1.
-/
import proofs.«159459_j77163382440451_1_alg».proof.Proof.Gen.KernelIdeal.Frame
import proofs.«159459_j77163382440451_1_alg».proof.Proof.GcnRow
import proofs.«159459_j77163382440451_1_alg».proof.Proof.Dense1
import proofs.«159459_j77163382440451_1_alg».proof.Proof.Dense1Payload
import Idealize.ShloMosaic.Lib.Pipeline.Value

noncomputable section

open scoped BigOperators

namespace Cert.KernelIdeal.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at point t: the activation and output windows are at block row t, the bias and the weights
    always at their one block. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activation block at point t, entry (p, k), is the activation array at row 5000·t + p, column k. -/
theorem act_block_apply (c : Dev nD) (t : Fin cfg1.N) (p : Fin 5000) (k : Fin 32) (r : Fin 100000)
    (hr : r.val = 5000 * t.val + p.val) :
    (iblk1 V c 0 t : Vec Ideal S5000x32 .f32) (ix2 p k) = (V c main_v43 : S100000x32.Idx → EReal) (ix2 r k) := by
  obtain ⟨e0, e1, -⟩ := block_indices t
  unfold iblk1
  rw [View.read_apply]
  show V c main_v43 _ = V c main_v43 _
  refine congrArg (V c main_v43) ?_
  funext a
  apply Fin.ext
  match a with
  | ⟨0, _⟩ => show win1_0.index t (0 : Fin 2) * 5000 + 1 * p.val = r.val; rw [e0, hr]; omega
  | ⟨1, _⟩ => show win1_0.index t (1 : Fin 2) * 32 + 1 * k.val = k.val; rw [e1]; omega

/-- The bias block at any point, entry (0, k), is entry k of the bias row. -/
theorem bias_block_apply (c : Dev nD) (t : Fin cfg1.N) (k : Fin 32) :
    (iblk1 V c 1 t : Vec Ideal S1x32 .f32) (ix2 (0 : Fin 1) k) = Gcn.row (V c main_v44 : S1x32.Idx → EReal) (ix1 k) := by
  obtain ⟨-, -, e2, e3, -⟩ := block_indices t
  unfold iblk1
  rw [View.read_apply]
  show V c main_v44 _ = V c main_v44 _
  refine congrArg (V c main_v44) ?_
  funext a
  apply Fin.ext
  match a with
  | ⟨0, _⟩ => show win1_1.index t (0 : Fin 2) * 1 + 1 * 0 = 0; rw [e2]
  | ⟨1, _⟩ => show win1_1.index t (1 : Fin 2) * 32 + 1 * k.val = k.val; rw [e3]; omega

/-- The weight block at any point is the weight matrix. -/
theorem weight_block_apply (c : Dev nD) (t : Fin cfg1.N) (k : Fin 32) (q : Fin 16) :
    (iblk1 V c 2 t : Vec Ideal S32x16 .f32) (ix2 k q) = (V c main_arg4 : S32x16.Idx → EReal) (ix2 k q) := by
  obtain ⟨-, -, -, -, e4, e5, -⟩ := block_indices t
  unfold iblk1
  rw [View.read_apply]
  show V c main_arg4 _ = V c main_arg4 _
  refine congrArg (V c main_arg4) ?_
  funext a
  apply Fin.ext
  match a with
  | ⟨0, _⟩ => show win1_2.index t (0 : Fin 2) * 32 + 1 * k.val = k.val; rw [e4]; omega
  | ⟨1, _⟩ => show win1_2.index t (1 : Fin 2) * 16 + 1 * q.val = q.val; rw [e5]; omega

/-- Entry (p, q) of the output block at point t sits in the output array at row 5000·t + p, column q. -/
theorem out_block_emb (t : Fin cfg1.N) (p : Fin 5000) (q : Fin 16) (r : Fin 100000)
    (hr : r.val = 5000 * t.val + p.val) :
    ((cfg1.win 3).blk t).view.emb (ix2 p q) = (ix2 r q : S100000x16.Idx) := by
  obtain ⟨-, -, -, -, -, -, e6, e7⟩ := block_indices t
  funext a
  apply Fin.ext
  match a with
  | ⟨0, _⟩ => show win1_3.index t (0 : Fin 2) * 5000 + 1 * p.val = r.val; rw [e6, hr]; omega
  | ⟨1, _⟩ => show win1_3.index t (1 : Fin 2) * 16 + 1 * q.val = q.val; rw [e7]; omega

/-- What point t writes back is the block of Gcn.dense1 of the whole arrays at rows 5000·t … 5000·t + 4999. -/
theorem flushed_eq (c : Dev nD) (t : Fin cfg1.N) :
    (dat1 (F := Ideal) V c).flushed 3 t
      = ((cfg1.win 3).blk t).view.read (Elt Ideal)
          (Gcn.dense1 (V c main_v43) (Gcn.row (V c main_v44)) (V c main_arg4)) := by
  show (cfg1.win 3).cut (grid1.coords t) ((dat1 V c).after 3 t) = _
  rw [after1_3]
  unfold out1_3
  rw [View.canon_unit_zero zero_offsets]
  simp only [View.ld_unit_zero (S := S5000x32) zero_offsets, View.ld_unit_zero (S := S1x32) zero_offsets,
    View.ld_unit_zero (S := S32x16) zero_offsets]
  funext y
  obtain ⟨p, q, rfl⟩ : ∃ (p : Fin 5000) (q : Fin 16), y = ix2 p q := ⟨y 0, y 1, eq_ix2 y⟩
  have ht : t.val < 20 := lt_of_lt_of_eq t.isLt N_1
  obtain ⟨r, hr⟩ : ∃ r : Fin 100000, r.val = 5000 * t.val + p.val := ⟨⟨5000 * t.val + p.val, by omega⟩, rfl⟩
  show k1_pay1 (F := Ideal) (iblk1 V c 0 t) (iblk1 V c 1 t) (iblk1 V c 2 t) (ix2 p q)
    = Gcn.dense1 (V c main_v43) (Gcn.row (V c main_v44)) (V c main_arg4) (((cfg1.win 3).blk t).view.emb (ix2 p q))
  rw [out_block_emb t p q r hr, Gcn.dense1_apply]
  refine (pay_apply (iblk1 V c 0 t) (iblk1 V c 1 t) (iblk1 V c 2 t) p q).trans ?_
  refine Finset.sum_congr rfl fun k _ => ?_
  rw [act_block_apply V c t p k r hr, bias_block_apply V c t k, weight_block_apply V c t k q]

/-- An index of the output array is in point t's block iff each coordinate is in the block's range on its axis. -/
theorem mem_block (t : Fin cfg1.N) (i : S100000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v45).slice (win1_3.rect t)).set ↔ _
  rw [View.set_slice_whole, Rect.mem_set_unit]
  exact Iff.rfl

/-- Every index of the output array is in some point's block: row r is written by point r / 5000. -/
theorem covered (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, e6, e7⟩ := block_indices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e6, ht]; omega
  | ⟨1, _⟩ =>
    show win1_3.index t (1 : Fin 2) * 16 ≤ (i 1).val ∧ (i 1).val < win1_3.index t (1 : Fin 2) * 16 + 16
    rw [e7]; omega

/-- After the region the output array is Gcn.dense1 of the activation array, the bias row and the weights as the
    region found them. -/
theorem final (V : (c : Dev nD) → (b : Ref sig .tc) → Buf (Elt Ideal) ((c : Thread nD τ).loc b)) (c : Dev nD) :
    (Gen.dat1 (F := Ideal) V c).arrAt 3 cfg1.N
      = Gcn.dense1 (V c main_v43) (Gcn.row (V c main_v44)) (V c main_arg4) :=
  (dat1 V c).arrAt_eq_of_cover 3 (Gcn.dense1 (V c main_v43) (Gcn.row (V c main_v44)) (V c main_arg4))
    (fun t _ => flushed_eq V c t) covered

end Cert.KernelIdeal.Dense1

end
-- ==== Proof.Dense1Ref.lean ====
/-
  The reference's second dense stage is the function Gcn.dense1.

  The reference adds the bias by broadcasting the length-32 vector first to one row and then down the 100000 rows,
  clamps against a broadcast scalar zero, and contracts the 32 columns against the weight matrix. Read at entry
  (r, j): the two broadcasts pick b k for column k, the scalar zero is the extended real 0, and the contraction is
  the sum over k < 32 of the clamped entry (r, k) times w (k, j).
-/
import proofs.«159459_j77163382440451_1_alg».proof.Proof.RefOps
import proofs.«159459_j77163382440451_1_alg».proof.Proof.Dense1
import Idealize.ShloMosaic.Lib.Pipeline.Value
import Idealize.ShloMosaic.Lib.ValueIdx
import Idealize.ShloMosaic.PureOps.Ideal.Laws

noncomputable section

open scoped BigOperators

namespace Cert.ReferenceIdeal.Dense1

open Cert.ReferenceIdeal Cert.ReferenceIdeal.Gen Idealize.ShloMosaic Idealize.ShloMosaic.ValueIdx
open Idealize.ShloMosaic.StableHlo

/-- The bias vector broadcast to one row and then to every row, read at (r, k), is b k. -/
theorem bias_apply (b : (⟨S32, .f32⟩ : BufTy).Contents (Elt Ideal)) (r : Fin 100000) (k : Fin 32) :
    broadcastInDim S100000x32 ![0, 1] bcast_S1x32_S100000x32_0_1 (broadcastInDim S1x32 ![1] bcast_S32_S1x32_1 b) (ix2 r k)
      = b (ix1 k) := by
  refine (broadcastInDim_apply _ bcast_S1x32_S100000x32_0_1 _ (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans ?_
  exact broadcastInDim_apply _ bcast_S32_S1x32_1 b (ix2 (0 : Fin 1) k) (ix1 k) (fun a => match a with
    | ⟨0, _⟩ => by show k.val = if (32 : Nat) = 1 then 0 else k.val; rw [if_neg (by decide)])

/-- The broadcast scalar zero, read anywhere, is the extended real 0. -/
theorem zero_apply (i : S100000x32.Idx) :
    broadcastInDim S100000x32 ![] bcast_S_S100000x32 (constant (F := Ideal) S_ .f32 0x00000000#32) i = (0 : EReal) := by
  refine (broadcastInDim_apply _ bcast_S_S100000x32 _ i ix0 (fun a => a.elim0)).trans ?_
  rw [constant_apply, Ideal.ofBits_zero_f32]

/-- The clamped, biased activation at (r, k). -/
theorem relu32_apply (a : (⟨S100000x32, .f32⟩ : BufTy).Contents (Elt Ideal)) (b : (⟨S32, .f32⟩ : BufTy).Contents (Elt Ideal))
    (r : Fin 100000) (k : Fin 32) :
    Ops.relu32 (F := Ideal) a b (ix2 r k) = max (a (ix2 r k) + b (ix1 k)) 0 := by
  unfold Ops.relu32
  rw [maximumf_apply, addf_apply, bias_apply, zero_apply]

/-- Left operand, row axis: the output's row. -/
theorem lhs_row (i : S100000x16.Idx) (q : dot_S100000x32_S32x16_S100000x16_1_0_0_1_n_n.contr.Idx) :
    (dot_S100000x32_S32x16_S100000x16_1_0_0_1_n_n.lhsIdx i q 0).val = (i 0).val := by
  unfold DotDims.lhsIdx
  rw [dif_neg (show ¬(0 : Fin S100000x32.rank) ∈ dot_S100000x32_S32x16_S100000x16_1_0_0_1_n_n.lhsBatch by decide),
    dif_pos (show (0 : Fin S100000x32.rank) ∈ dot_S100000x32_S32x16_S100000x16_1_0_0_1_n_n.lhsNonContracting by decide)]
  rfl

/-- Left operand, column axis: the contraction coordinate. -/
theorem lhs_col (i : S100000x16.Idx) (q : dot_S100000x32_S32x16_S100000x16_1_0_0_1_n_n.contr.Idx) :
    (dot_S100000x32_S32x16_S100000x16_1_0_0_1_n_n.lhsIdx i q 1).val = (q ⟨0, by decide⟩).val :=
  dot_S100000x32_S32x16_S100000x16_1_0_0_1_n_n.lhsIdx_val_of_single rfl i q

/-- Right operand, row axis: the contraction coordinate. -/
theorem rhs_row (i : S100000x16.Idx) (q : dot_S100000x32_S32x16_S100000x16_1_0_0_1_n_n.contr.Idx) :
    (dot_S100000x32_S32x16_S100000x16_1_0_0_1_n_n.rhsIdx i q 0).val = (q ⟨0, by decide⟩).val :=
  dot_S100000x32_S32x16_S100000x16_1_0_0_1_n_n.rhsIdx_val_of_single rfl i q

/-- Right operand, column axis: the output's column. -/
theorem rhs_col (i : S100000x16.Idx) (q : dot_S100000x32_S32x16_S100000x16_1_0_0_1_n_n.contr.Idx) :
    (dot_S100000x32_S32x16_S100000x16_1_0_0_1_n_n.rhsIdx i q 1).val = (i 1).val := by
  unfold DotDims.rhsIdx
  rw [dif_neg (show ¬(1 : Fin S32x16.rank) ∈ dot_S100000x32_S32x16_S100000x16_1_0_0_1_n_n.rhsBatch by decide),
    dif_pos (show (1 : Fin S32x16.rank) ∈ dot_S100000x32_S32x16_S100000x16_1_0_0_1_n_n.rhsNonContracting by decide)]
  rfl

/-- The contraction's left operand index at output (r, j) and contraction coordinate k is (r, k). -/
theorem lhs_idx (r : Fin 100000) (j : Fin 16) (k : Fin 32) :
    dot_S100000x32_S32x16_S100000x16_1_0_0_1_n_n.lhsIdx (ix2 r j)
        ((contrEquiv1 dot_S100000x32_S32x16_S100000x16_1_0_0_1_n_n 32 rfl rfl).symm k) = ix2 r k := by
  have hk := contrEquiv1_symm_val dot_S100000x32_S32x16_S100000x16_1_0_0_1_n_n 32 rfl rfl k
  funext a
  apply Fin.ext
  match a with
  | ⟨0, _⟩ => exact lhs_row _ _
  | ⟨1, _⟩ => exact (lhs_col _ _).trans hk

/-- The contraction's right operand index at output (r, j) and contraction coordinate k is (k, j). -/
theorem rhs_idx (r : Fin 100000) (j : Fin 16) (k : Fin 32) :
    dot_S100000x32_S32x16_S100000x16_1_0_0_1_n_n.rhsIdx (ix2 r j)
        ((contrEquiv1 dot_S100000x32_S32x16_S100000x16_1_0_0_1_n_n 32 rfl rfl).symm k) = ix2 k j := by
  have hk := contrEquiv1_symm_val dot_S100000x32_S32x16_S100000x16_1_0_0_1_n_n 32 rfl rfl k
  funext a
  apply Fin.ext
  match a with
  | ⟨0, _⟩ => exact (rhs_row _ _).trans hk
  | ⟨1, _⟩ => exact rhs_col _ _

/-- The reference's second dense stage, entry by entry, is Gcn.dense1 of the same three arrays. -/
theorem ref_eq (a : (⟨S100000x32, .f32⟩ : BufTy).Contents (Elt Ideal)) (b : (⟨S32, .f32⟩ : BufTy).Contents (Elt Ideal))
    (w : (⟨S32x16, .f32⟩ : BufTy).Contents (Elt Ideal)) :
    Ops.dense1 (F := Ideal) a b w = Gcn.dense1 a b w := by
  funext i
  obtain ⟨r, j, rfl⟩ : ∃ (r : Fin 100000) (j : Fin 16), i = ix2 r j := ⟨i 0, i 1, eq_ix2 i⟩
  rw [Gcn.dense1_apply]
  unfold Ops.dense1
  simp only [Host.dotGeneral]
  rw [Ideal.dotGeneral_apply,
    ← Equiv.sum_comp (contrEquiv1 dot_S100000x32_S32x16_S100000x16_1_0_0_1_n_n 32 rfl rfl).symm]
  refine Finset.sum_congr rfl fun k _ => ?_
  rw [lhs_idx, rhs_idx, relu32_apply]

end Cert.ReferenceIdeal.Dense1

end
-- ==== Proof.KernelFold.lean ====
/-
  The idealized kernel's buffers followed through its run, up to the entry of the third region. At each boundary of the
  fold the buffers that matter hold a named function of the launch contents of the arguments:

    after the first three stretches   the edge ends src e, dst e and the edge weights norm (src e) (dst e);
    after the first region            its result array  x · W1  (the region's blocks cover the array);
    after the next stretch            the graph sum of that, and the first bias as a one-row matrix;
    after the second region           max (· + b1, 0) · W2 of that graph sum;
    after the next stretch            the graph sum of that, and the last two biases as one-row matrices.

  The graph operations are the reference's own and stay closed; a region's result is its layer's specification, which
  is also what the reference's operations for that layer compute.
-/
import proofs.«159459_j77163382440451_1_alg».proof.Proof.Gen.KernelIdeal.Frame
import proofs.«159459_j77163382440451_1_alg».proof.Proof.KernelStretch
import proofs.«159459_j77163382440451_1_alg».proof.Proof.GcnRow
import proofs.«159459_j77163382440451_1_alg».proof.Proof.Dense0Kernel
import proofs.«159459_j77163382440451_1_alg».proof.Proof.Dense0Ref
import proofs.«159459_j77163382440451_1_alg».proof.Proof.Dense1Kernel
import proofs.«159459_j77163382440451_1_alg».proof.Proof.Dense1Ref

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## At the first region's entry -/

theorem at3_src : W3 m ρ c (Proc.devRef .tc main_v3) = (Cert.ReferenceIdeal.Ops.src (m ((c.tc : Thread nD τ).loc main_arg1))) := Stretch.pre_src (W0 m ρ c)
theorem at3_dst : W3 m ρ c (Proc.devRef .tc main_v6) = (Cert.ReferenceIdeal.Ops.dst (m ((c.tc : Thread nD τ).loc main_arg1))) := Stretch.pre_dst (W0 m ρ c)
theorem at3_norm : W3 m ρ c (Proc.devRef .tc main_v29) = (Cert.ReferenceIdeal.Ops.norm (Cert.ReferenceIdeal.Ops.src (m ((c.tc : Thread nD τ).loc main_arg1))) (Cert.ReferenceIdeal.Ops.dst (m ((c.tc : Thread nD τ).loc main_arg1)))) := Stretch.pre_norm (W0 m ρ c)
theorem at3_arg0 : W3 m ρ c (Proc.devRef .tc main_arg0) = (m ((c.tc : Thread nD τ).loc main_arg0)) := Stretch.pre_arg0 (W0 m ρ c)
theorem at3_arg2 : W3 m ρ c (Proc.devRef .tc main_arg2) = (m ((c.tc : Thread nD τ).loc main_arg2)) := Stretch.pre_arg2 (W0 m ρ c)
theorem at3_arg3 : W3 m ρ c (Proc.devRef .tc main_arg3) = (m ((c.tc : Thread nD τ).loc main_arg3)) := Stretch.pre_arg3 (W0 m ρ c)
theorem at3_arg4 : W3 m ρ c (Proc.devRef .tc main_arg4) = (m ((c.tc : Thread nD τ).loc main_arg4)) := Stretch.pre_arg4 (W0 m ρ c)
theorem at3_arg5 : W3 m ρ c (Proc.devRef .tc main_arg5) = (m ((c.tc : Thread nD τ).loc main_arg5)) := Stretch.pre_arg5 (W0 m ρ c)
theorem at3_arg6 : W3 m ρ c (Proc.devRef .tc main_arg6) = (m ((c.tc : Thread nD τ).loc main_arg6)) := Stretch.pre_arg6 (W0 m ρ c)
theorem at3_arg7 : W3 m ρ c (Proc.devRef .tc main_arg7) = (m ((c.tc : Thread nD τ).loc main_arg7)) := Stretch.pre_arg7 (W0 m ρ c)

/-! ## At the first region's exit -/

/-- The first region leaves x · W1 in its result array. -/
theorem at4_lin : W4 m ρ c (Proc.devRef .tc main_v30) = (Cert.ReferenceIdeal.Ops.dense0 (m ((c.tc : Thread nD τ).loc main_arg0)) (m ((c.tc : Thread nD τ).loc main_arg2))) := by
  refine (W4_arr m ρ c 2).trans ((Dense0.final (V3 m ρ) c).trans ?_)
  have h0 : V3 m ρ c main_arg0 = (m ((c.tc : Thread nD τ).loc main_arg0)) := at3_arg0 m ρ c
  have h2 : V3 m ρ c main_arg2 = (m ((c.tc : Thread nD τ).loc main_arg2)) := at3_arg2 m ρ c
  rw [h0, h2]
  exact (Cert.ReferenceIdeal.Dense0.ref_eq _ _).symm

theorem at4_src : W4 m ρ c (Proc.devRef .tc main_v3) = (Cert.ReferenceIdeal.Ops.src (m ((c.tc : Thread nD τ).loc main_arg1))) := (W4_of_ne m ρ c main_v3 (by decide)).trans (at3_src m ρ c)
theorem at4_dst : W4 m ρ c (Proc.devRef .tc main_v6) = (Cert.ReferenceIdeal.Ops.dst (m ((c.tc : Thread nD τ).loc main_arg1))) := (W4_of_ne m ρ c main_v6 (by decide)).trans (at3_dst m ρ c)
theorem at4_norm : W4 m ρ c (Proc.devRef .tc main_v29) = (Cert.ReferenceIdeal.Ops.norm (Cert.ReferenceIdeal.Ops.src (m ((c.tc : Thread nD τ).loc main_arg1))) (Cert.ReferenceIdeal.Ops.dst (m ((c.tc : Thread nD τ).loc main_arg1)))) := (W4_of_ne m ρ c main_v29 (by decide)).trans (at3_norm m ρ c)
theorem at4_arg3 : W4 m ρ c (Proc.devRef .tc main_arg3) = (m ((c.tc : Thread nD τ).loc main_arg3)) := (W4_of_ne m ρ c main_arg3 (by decide)).trans (at3_arg3 m ρ c)
theorem at4_arg4 : W4 m ρ c (Proc.devRef .tc main_arg4) = (m ((c.tc : Thread nD τ).loc main_arg4)) := (W4_of_ne m ρ c main_arg4 (by decide)).trans (at3_arg4 m ρ c)
theorem at4_arg5 : W4 m ρ c (Proc.devRef .tc main_arg5) = (m ((c.tc : Thread nD τ).loc main_arg5)) := (W4_of_ne m ρ c main_arg5 (by decide)).trans (at3_arg5 m ρ c)
theorem at4_arg6 : W4 m ρ c (Proc.devRef .tc main_arg6) = (m ((c.tc : Thread nD τ).loc main_arg6)) := (W4_of_ne m ρ c main_arg6 (by decide)).trans (at3_arg6 m ρ c)
theorem at4_arg7 : W4 m ρ c (Proc.devRef .tc main_arg7) = (m ((c.tc : Thread nD τ).loc main_arg7)) := (W4_of_ne m ρ c main_arg7 (by decide)).trans (at3_arg7 m ρ c)

/-! ## At the second region's entry -/

/-- The graph sum of x · W1. -/
theorem at5_agg : W5 m ρ c (Proc.devRef .tc main_v43) = (Cert.ReferenceIdeal.Ops.agg32 (Cert.ReferenceIdeal.Ops.dense0 (m ((c.tc : Thread nD τ).loc main_arg0)) (m ((c.tc : Thread nD τ).loc main_arg2))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) := by
  refine (Stretch.s1_agg (W4 m ρ c)).trans ?_
  rw [at4_lin m ρ c, at4_src m ρ c, at4_dst m ρ c, at4_norm m ρ c]

/-- The first bias as a one-row matrix. -/
theorem at5_bias : W5 m ρ c (Proc.devRef .tc main_v44) = shapeCast S1x32 (m ((c.tc : Thread nD τ).loc main_arg3)) shapeCasts_S32_S1x32 := by
  refine (Stretch.s1_bias (W4 m ρ c)).trans ?_
  rw [at4_arg3 m ρ c]

theorem at5_src : W5 m ρ c (Proc.devRef .tc main_v3) = (Cert.ReferenceIdeal.Ops.src (m ((c.tc : Thread nD τ).loc main_arg1))) := (Stretch.s1_v3 (W4 m ρ c)).trans (at4_src m ρ c)
theorem at5_dst : W5 m ρ c (Proc.devRef .tc main_v6) = (Cert.ReferenceIdeal.Ops.dst (m ((c.tc : Thread nD τ).loc main_arg1))) := (Stretch.s1_v6 (W4 m ρ c)).trans (at4_dst m ρ c)
theorem at5_norm : W5 m ρ c (Proc.devRef .tc main_v29) = (Cert.ReferenceIdeal.Ops.norm (Cert.ReferenceIdeal.Ops.src (m ((c.tc : Thread nD τ).loc main_arg1))) (Cert.ReferenceIdeal.Ops.dst (m ((c.tc : Thread nD τ).loc main_arg1)))) := (Stretch.s1_v29 (W4 m ρ c)).trans (at4_norm m ρ c)
theorem at5_arg4 : W5 m ρ c (Proc.devRef .tc main_arg4) = (m ((c.tc : Thread nD τ).loc main_arg4)) := (Stretch.s1_arg4 (W4 m ρ c)).trans (at4_arg4 m ρ c)
theorem at5_arg5 : W5 m ρ c (Proc.devRef .tc main_arg5) = (m ((c.tc : Thread nD τ).loc main_arg5)) := (Stretch.s1_arg5 (W4 m ρ c)).trans (at4_arg5 m ρ c)
theorem at5_arg6 : W5 m ρ c (Proc.devRef .tc main_arg6) = (m ((c.tc : Thread nD τ).loc main_arg6)) := (Stretch.s1_arg6 (W4 m ρ c)).trans (at4_arg6 m ρ c)
theorem at5_arg7 : W5 m ρ c (Proc.devRef .tc main_arg7) = (m ((c.tc : Thread nD τ).loc main_arg7)) := (Stretch.s1_arg7 (W4 m ρ c)).trans (at4_arg7 m ρ c)

/-! ## At the second region's exit -/

/-- The second region leaves max (a + b1, 0) · W2 of the graph sum a in its result array. -/
theorem at6_lin : W6 m ρ c (Proc.devRef .tc main_v45) = (Cert.ReferenceIdeal.Ops.dense1 (Cert.ReferenceIdeal.Ops.agg32 (Cert.ReferenceIdeal.Ops.dense0 (m ((c.tc : Thread nD τ).loc main_arg0)) (m ((c.tc : Thread nD τ).loc main_arg2))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) (m ((c.tc : Thread nD τ).loc main_arg3)) (m ((c.tc : Thread nD τ).loc main_arg4))) := by
  refine (W6_arr m ρ c 3).trans ((Dense1.final (V5 m ρ) c).trans ?_)
  have ha : V5 m ρ c main_v43 = (Cert.ReferenceIdeal.Ops.agg32 (Cert.ReferenceIdeal.Ops.dense0 (m ((c.tc : Thread nD τ).loc main_arg0)) (m ((c.tc : Thread nD τ).loc main_arg2))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) := at5_agg m ρ c
  have hb : V5 m ρ c main_v44 = shapeCast S1x32 (m ((c.tc : Thread nD τ).loc main_arg3)) shapeCasts_S32_S1x32 := at5_bias m ρ c
  have hw : V5 m ρ c main_arg4 = (m ((c.tc : Thread nD τ).loc main_arg4)) := at5_arg4 m ρ c
  have hr : Gcn.row (shapeCast S1x32 (m ((c.tc : Thread nD τ).loc main_arg3)) shapeCasts_S32_S1x32) = (m ((c.tc : Thread nD τ).loc main_arg3)) := Gcn.row_reshape _ _
  rw [ha, hb, hw, hr]
  exact (Cert.ReferenceIdeal.Dense1.ref_eq _ _ _).symm

theorem at6_src : W6 m ρ c (Proc.devRef .tc main_v3) = (Cert.ReferenceIdeal.Ops.src (m ((c.tc : Thread nD τ).loc main_arg1))) := (W6_of_ne m ρ c main_v3 (by decide)).trans (at5_src m ρ c)
theorem at6_dst : W6 m ρ c (Proc.devRef .tc main_v6) = (Cert.ReferenceIdeal.Ops.dst (m ((c.tc : Thread nD τ).loc main_arg1))) := (W6_of_ne m ρ c main_v6 (by decide)).trans (at5_dst m ρ c)
theorem at6_norm : W6 m ρ c (Proc.devRef .tc main_v29) = (Cert.ReferenceIdeal.Ops.norm (Cert.ReferenceIdeal.Ops.src (m ((c.tc : Thread nD τ).loc main_arg1))) (Cert.ReferenceIdeal.Ops.dst (m ((c.tc : Thread nD τ).loc main_arg1)))) := (W6_of_ne m ρ c main_v29 (by decide)).trans (at5_norm m ρ c)
theorem at6_arg5 : W6 m ρ c (Proc.devRef .tc main_arg5) = (m ((c.tc : Thread nD τ).loc main_arg5)) := (W6_of_ne m ρ c main_arg5 (by decide)).trans (at5_arg5 m ρ c)
theorem at6_arg6 : W6 m ρ c (Proc.devRef .tc main_arg6) = (m ((c.tc : Thread nD τ).loc main_arg6)) := (W6_of_ne m ρ c main_arg6 (by decide)).trans (at5_arg6 m ρ c)
theorem at6_arg7 : W6 m ρ c (Proc.devRef .tc main_arg7) = (m ((c.tc : Thread nD τ).loc main_arg7)) := (W6_of_ne m ρ c main_arg7 (by decide)).trans (at5_arg7 m ρ c)

/-! ## At the third region's entry -/

/-- The graph sum of the second layer's rows. -/
theorem at7_agg : W7 m ρ c (Proc.devRef .tc main_v58) = (Cert.ReferenceIdeal.Ops.agg16 (Cert.ReferenceIdeal.Ops.dense1 (Cert.ReferenceIdeal.Ops.agg32 (Cert.ReferenceIdeal.Ops.dense0 (m ((c.tc : Thread nD τ).loc main_arg0)) (m ((c.tc : Thread nD τ).loc main_arg2))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) (m ((c.tc : Thread nD τ).loc main_arg3)) (m ((c.tc : Thread nD τ).loc main_arg4))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) := by
  refine (Stretch.s2_agg (W6 m ρ c)).trans ?_
  rw [at6_lin m ρ c, at6_src m ρ c, at6_dst m ρ c, at6_norm m ρ c]

/-- The second bias as a one-row matrix. -/
theorem at7_bias : W7 m ρ c (Proc.devRef .tc main_v59) = shapeCast S1x16 (m ((c.tc : Thread nD τ).loc main_arg5)) shapeCasts_S16_S1x16 := by
  refine (Stretch.s2_bias (W6 m ρ c)).trans ?_
  rw [at6_arg5 m ρ c]

/-- The classifier's bias as a one-row matrix. -/
theorem at7_cbias : W7 m ρ c (Proc.devRef .tc main_v60) = shapeCast S1x8 (m ((c.tc : Thread nD τ).loc main_arg7)) shapeCasts_S8_S1x8 := by
  refine (Stretch.s2_cbias (W6 m ρ c)).trans ?_
  rw [at6_arg7 m ρ c]

theorem at7_arg6 : W7 m ρ c (Proc.devRef .tc main_arg6) = (m ((c.tc : Thread nD τ).loc main_arg6)) := (Stretch.s2_arg6 (W6 m ρ c)).trans (at6_arg6 m ρ c)

end Cert.KernelIdeal.Fold

end
-- ==== Proof.ClassifyBlocks.lean ====
/-
  The classifier region's output array after its twenty grid points, given what one point stores entry by
  entry.  Point t reads rows 5000·t … 5000·t + 4999 of the [100000,16] input and the three small operands
  whole, and writes back rows 5000·t … 5000·t + 4999 of the [100000,8] result.  If entry (p, q) of what point
  t stores is entry (5000·t + p, q) of one function G of the arrays, every point writes its block of G; row r
  lies in the block of point r / 5000, so the blocks cover the array and it ends holding G.
-/
import proofs.«159459_j77163382440451_1_alg».proof.Proof.Gen.KernelIdeal.Frame
import Idealize.ShloMosaic.Lib.ValueIdx
import Idealize.ShloMosaic.Lib.Pipeline.Value

noncomputable section

namespace Cert.KernelIdeal.ClassifyBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its staging buffers from their first element. -/
theorem zero_offsets : (![0, 0] : Fin 2 → Nat) = fun _ => 0 := funext fun a => by fin_cases a <;> rfl

/-- The block indices at point t: the input and the result move down their rows with t, the small operands stay put. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (p, k) of point t's block of the input is the input at (5000·t + p, k). -/
theorem inblock_apply (c : Dev nD) (t : Fin cfg2.N) (p : Fin 5000) (k : Fin 16) (r : Fin 100000)
    (hr : r.val = 5000 * t.val + p.val) :
    (iblk2 V c 0 t : Vec Ideal S5000x16 .f32) (ix2 p k) = (V c main_v58 : S100000x16.Idx → EReal) (ix2 r k) := by
  obtain ⟨e0, e1, -⟩ := index_facts t
  unfold iblk2
  rw [View.read_apply]
  show V c main_v58 _ = V c main_v58 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 16 + 1 * k.val = k.val; rw [e1]; omega

/-- Every point's block of the first bias row is the row. -/
theorem bias16block_apply (c : Dev nD) (t : Fin cfg2.N) (u : Fin 1) (k : Fin 16) :
    (iblk2 V c 1 t : Vec Ideal S1x16 .f32) (ix2 u k) = (V c main_v59 : S1x16.Idx → EReal) (ix2 u k) := by
  obtain ⟨-, -, e2, e3, -⟩ := index_facts t
  unfold iblk2
  rw [View.read_apply]
  show V c main_v59 _ = V c main_v59 _
  congr 1
  funext a
  apply Fin.ext
  match a with
  | ⟨0, _⟩ => show win2_1.index t (0 : Fin 2) * 1 + 1 * u.val = u.val; rw [e2]; omega
  | ⟨1, _⟩ => show win2_1.index t (1 : Fin 2) * 16 + 1 * k.val = k.val; rw [e3]; omega

/-- Every point's block of the weight matrix is the matrix. -/
theorem wblock_apply (c : Dev nD) (t : Fin cfg2.N) (k : Fin 16) (q : Fin 8) :
    (iblk2 V c 2 t : Vec Ideal S16x8 .f32) (ix2 k q) = (V c main_arg6 : S16x8.Idx → EReal) (ix2 k q) := by
  obtain ⟨-, -, -, -, e4, e5, -⟩ := index_facts t
  unfold iblk2
  rw [View.read_apply]
  show V c main_arg6 _ = V c main_arg6 _
  congr 1
  funext a
  apply Fin.ext
  match a with
  | ⟨0, _⟩ => show win2_2.index t (0 : Fin 2) * 16 + 1 * k.val = k.val; rw [e4]; omega
  | ⟨1, _⟩ => show win2_2.index t (1 : Fin 2) * 8 + 1 * q.val = q.val; rw [e5]; omega

/-- Every point's block of the second bias row is the row. -/
theorem bias8block_apply (c : Dev nD) (t : Fin cfg2.N) (u : Fin 1) (q : Fin 8) :
    (iblk2 V c 3 t : Vec Ideal S1x8 .f32) (ix2 u q) = (V c main_v60 : S1x8.Idx → EReal) (ix2 u q) := by
  obtain ⟨-, -, -, -, -, -, e6, e7, -⟩ := index_facts t
  unfold iblk2
  rw [View.read_apply]
  show V c main_v60 _ = V c main_v60 _
  congr 1
  funext a
  apply Fin.ext
  match a with
  | ⟨0, _⟩ => show win2_3.index t (0 : Fin 2) * 1 + 1 * u.val = u.val; rw [e6]; omega
  | ⟨1, _⟩ => show win2_3.index t (1 : Fin 2) * 8 + 1 * q.val = q.val; rw [e7]; omega

/-- WHAT POINT t WRITES BACK is its block of G, when each entry the point stores is G's entry there. -/
theorem flushed_eq_of_point (c : Dev nD) (G : S100000x8.Idx → EReal)
    (hpoint : ∀ (t : Fin cfg2.N) (p : Fin 5000) (q : Fin 8) (r : Fin 100000), r.val = 5000 * t.val + p.val →
      k2_pay1 (F := Ideal) (iblk2 V c 0 t) (iblk2 V c 1 t) (iblk2 V c 2 t) (iblk2 V c 3 t) (ix2 p q) = G (ix2 r q))
    (t : Fin cfg2.N) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero zero_offsets]
  simp only [View.ld_unit_zero (S := S5000x16) zero_offsets, View.ld_unit_zero (S := S1x16) zero_offsets,
    View.ld_unit_zero (S := S16x8) zero_offsets, View.ld_unit_zero (S := S1x8) zero_offsets]
  obtain ⟨-, -, -, -, -, -, -, -, e8, e9⟩ := index_facts t
  have hN : t.val < 20 := lt_of_lt_of_eq t.isLt N_2
  funext j
  have hj0 : (j 0).val < 5000 := (j 0).isLt
  have hj1 : (j 1).val < 8 := (j 1).isLt
  have hy : (cfg2.win 4).xinj (grid2.coords t) j = ix2 (⟨(j 0).val, hj0⟩ : Fin 5000) (⟨(j 1).val, hj1⟩ : Fin 8) := by
    funext a
    match a with
    | ⟨0, _⟩ => rfl
    | ⟨1, _⟩ => rfl
  have hemb : ((cfg2.win 4).blk t).view.emb j
      = ix2 (⟨5000 * t.val + (j 0).val, by omega⟩ : Fin 100000) (⟨(j 1).val, hj1⟩ : Fin 8) := by
    funext a
    apply Fin.ext
    match a with
    | ⟨0, _⟩ => show win2_4.index t (0 : Fin 2) * 5000 + 1 * (j 0).val = 5000 * t.val + (j 0).val; rw [e8]; omega
    | ⟨1, _⟩ => show win2_4.index t (1 : Fin 2) * 8 + 1 * (j 1).val = (j 1).val; rw [e9]; omega
  show k2_pay1 (F := Ideal) (iblk2 V c 0 t) (iblk2 V c 1 t) (iblk2 V c 2 t) (iblk2 V c 3 t) ((cfg2.win 4).xinj (grid2.coords t) j)
    = G (((cfg2.win 4).blk t).view.emb j)
  rw [hy, hemb]
  exact hpoint t _ _ _ rfl

/-- An index of the result is in point t's block iff each coordinate is in the block's range on its axis. -/
theorem mem_blk (t : Fin cfg2.N) (i : S100000x8.Idx) :
    i ∈ ((cfg2.win 4).blk t).view.set ↔ ∀ a : Fin 2, win2_4.index t a * S5000x8.size a ≤ (i a).val
      ∧ (i a).val < win2_4.index t a * S5000x8.size a + S5000x8.size a := by
  show i ∈ ((View.whole main_v61).slice (win2_4.rect t)).set ↔ _
  rw [View.set_slice_whole, Rect.mem_set_unit]
  exact Iff.rfl

/-- Row r of the result is written back by point r / 5000: the blocks cover the array. -/
theorem cover (i : S100000x8.Idx) :
    ∃ t : Fin cfg2.N, (cfg2.win 4).flush t = true ∧ i ∈ ((cfg2.win 4).blk t).view.set := by
  have hi0 : (i 0).val < 100000 := (i 0).isLt
  have hi1 : (i 1).val < 8 := (i 1).isLt
  obtain ⟨t, ht⟩ : ∃ t : Fin cfg2.N, t.val = (i 0).val / 5000 :=
    ⟨⟨(i 0).val / 5000, lt_of_lt_of_eq (by omega : (i 0).val / 5000 < 20) N_2.symm⟩, rfl⟩
  obtain ⟨-, -, -, -, -, -, -, -, e8, e9⟩ := index_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    rw [e8, ht]; omega
  | ⟨1, _⟩ =>
    show win2_4.index t (1 : Fin 2) * 8 ≤ (i 1).val ∧ (i 1).val < win2_4.index t (1 : Fin 2) * 8 + 8
    rw [e9]; omega

/-- THE RESULT ARRAY after the twenty points is G. -/
theorem final_of_point (c : Dev nD) (G : S100000x8.Idx → EReal)
    (hpoint : ∀ (t : Fin cfg2.N) (p : Fin 5000) (q : Fin 8) (r : Fin 100000), r.val = 5000 * t.val + p.val →
      k2_pay1 (F := Ideal) (iblk2 V c 0 t) (iblk2 V c 1 t) (iblk2 V c 2 t) (iblk2 V c 3 t) (ix2 p q) = G (ix2 r q)) :
    (Gen.dat2 (F := Ideal) V c).arrAt 4 cfg2.N = G :=
  (dat2 V c).arrAt_eq_of_cover 4 G (fun t _ => flushed_eq_of_point V c G hpoint t) cover

end Cert.KernelIdeal.ClassifyBlocks

end
-- ==== Proof.Classify.lean ====
/-
  The classifier as one function of its four arrays, entry by entry on the extended reals.

  For a row r of an n x 16 array a, the bias b of length 16, the 16 x 8 weights w and the bias bc of length 8:

    hidden r k    = max (a (r, k) + b k) 0
    score r j     = (sum over k : Fin 16 of  hidden r k * w (k, j)) + bc j
    scoreMax r    = the largest of score r j over the eight classes j, folded with max from the bottom element
    shifted r j   = score r j - scoreMax r
    logSoftmaxAt r j = shifted r j - log (sum over j' : Fin 8 of exp (shifted r j'))

  and classify is logSoftmaxAt on the 100000-row array. exp and log are the extended-real exponential and logarithm of the
  ideal float values (exp of the bottom element is 0, log 0 is the bottom element). Nothing here needs the entries to be
  finite. Every quantity of row r depends on a only through row r, so a block of rows of a gives the same entries as the
  whole array does at those rows (logSoftmaxAt_congr).
-/
import Idealize.ShloMosaic.Lib.ValueIdx
import Idealize.ShloMosaic.PureOps.Ideal

noncomputable section

open scoped BigOperators

namespace Gcn

open Idealize.ShloMosaic Idealize.ShloMosaic.ValueIdx

section
variable {n : Nat} (a : (⟨2, ![n, 16]⟩ : Shape).Idx → EReal) (b : (⟨1, ![16]⟩ : Shape).Idx → EReal)
  (w : (⟨2, ![16, 8]⟩ : Shape).Idx → EReal) (bc : (⟨1, ![8]⟩ : Shape).Idx → EReal)

/-- One hidden unit after the bias and the clamp at zero: max (a (r, k) + b k) 0. -/
def hidden (r : Fin n) (k : Fin 16) : EReal := max (a (ix2 r k) + b (ix1 k)) 0

/-- The score of row r for class j: the clamped hidden row against column j of the weights, plus the class bias. -/
def score (r : Fin n) (j : Fin 8) : EReal :=
  (∑ k : Fin 16, hidden a b r k * w (ix2 k j)) + bc (ix1 j)

/-- The largest score of row r, as the fold of max over the eight classes from the bottom element. -/
def scoreMax (r : Fin n) : EReal :=
  (Finset.univ : Finset (Fin 8)).fold max ⊥ (fun j => score a b w bc r j)

/-- The score minus the row's largest score. -/
def shifted (r : Fin n) (j : Fin 8) : EReal := score a b w bc r j - scoreMax a b w bc r

/-- The log-softmax entry: the shifted score minus the logarithm of the row's sum of exponentials of shifted scores. -/
def logSoftmaxAt (r : Fin n) (j : Fin 8) : EReal :=
  shifted a b w bc r j - Ideal.log (∑ j' : Fin 8, Ideal.exp (shifted a b w bc r j'))

end

/-- The entries of row r depend on the array only through its row r: two arrays (of any numbers of rows) that agree on a
    row give the same log-softmax entries there. -/
theorem logSoftmaxAt_congr {n m : Nat} (a : (⟨2, ![n, 16]⟩ : Shape).Idx → EReal) (a' : (⟨2, ![m, 16]⟩ : Shape).Idx → EReal)
    (b : (⟨1, ![16]⟩ : Shape).Idx → EReal) (w : (⟨2, ![16, 8]⟩ : Shape).Idx → EReal) (bc : (⟨1, ![8]⟩ : Shape).Idx → EReal)
    (r : Fin n) (r' : Fin m) (h : ∀ k : Fin 16, a (ix2 r k) = a' (ix2 r' k)) (j : Fin 8) :
    logSoftmaxAt a b w bc r j = logSoftmaxAt a' b w bc r' j := by
  have hs : ∀ j : Fin 8, score a b w bc r j = score a' b w bc r' j := fun j => by
    unfold score hidden
    exact congrArg (· + bc (ix1 j)) (Finset.sum_congr rfl fun k _ => by rw [h k])
  unfold logSoftmaxAt shifted scoreMax
  simp only [hs]

/-- The same with every operand compared entry by entry: the log-softmax entries of a row are determined by that row of
    the array and by the entries of the two bias vectors and of the weights. -/
theorem logSoftmaxAt_congr_all {n m : Nat} (a : (⟨2, ![n, 16]⟩ : Shape).Idx → EReal) (a' : (⟨2, ![m, 16]⟩ : Shape).Idx → EReal)
    (b b' : (⟨1, ![16]⟩ : Shape).Idx → EReal) (w w' : (⟨2, ![16, 8]⟩ : Shape).Idx → EReal) (bc bc' : (⟨1, ![8]⟩ : Shape).Idx → EReal)
    (r : Fin n) (r' : Fin m) (ha : ∀ k : Fin 16, a (ix2 r k) = a' (ix2 r' k)) (hb : ∀ k : Fin 16, b (ix1 k) = b' (ix1 k))
    (hw : ∀ (k : Fin 16) (j : Fin 8), w (ix2 k j) = w' (ix2 k j)) (hbc : ∀ j : Fin 8, bc (ix1 j) = bc' (ix1 j)) (j : Fin 8) :
    logSoftmaxAt a b w bc r j = logSoftmaxAt a' b' w' bc' r' j := by
  obtain rfl : b = b' := funext fun i => by rw [eq_ix1 i]; exact hb _
  obtain rfl : w = w' := funext fun i => by rw [eq_ix2 i]; exact hw _ _
  obtain rfl : bc = bc' := funext fun i => by rw [eq_ix1 i]; exact hbc _
  exact logSoftmaxAt_congr a a' b w bc r r' ha j

/-- The classifier: logSoftmax (max (a + b, 0) * w + bc), row-wise over the eight classes. -/
def classify (a : (⟨2, ![100000, 16]⟩ : Shape).Idx → EReal) (b : (⟨1, ![16]⟩ : Shape).Idx → EReal)
    (w : (⟨2, ![16, 8]⟩ : Shape).Idx → EReal) (bc : (⟨1, ![8]⟩ : Shape).Idx → EReal) :
    (⟨2, ![100000, 8]⟩ : Shape).Idx → EReal :=
  fun i => logSoftmaxAt a b w bc (i 0) (i 1)

/-- At the index with coordinates (r, j) the classifier is the log-softmax entry of row r and class j. -/
theorem classify_ix2 (a : (⟨2, ![100000, 16]⟩ : Shape).Idx → EReal) (b : (⟨1, ![16]⟩ : Shape).Idx → EReal)
    (w : (⟨2, ![16, 8]⟩ : Shape).Idx → EReal) (bc : (⟨1, ![8]⟩ : Shape).Idx → EReal) (r : Fin 100000) (j : Fin 8) :
    classify a b w bc (ix2 r j) = logSoftmaxAt a b w bc r j := rfl

end Gcn

end
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.ClassifyPay.lean ====
/-
  The classifier kernel's stored value at one point of its grid, read entry by entry as a function of the four blocks the
  body loads: a block x0 of 5000 rows of hidden activations, the bias row x1, the weights x2 and the class-bias row x3.

  The body computes, in this order: the hidden units max (x0 + x1, 0) (the bias row repeated down the rows); their product
  with the weights, accumulated onto zero; the class bias added to every row (the scores); the row maximum of the scores,
  kept as a column and repeated along the classes; the scores minus it; the row sum of the exponentials of those, kept as a
  column, its logarithm repeated along the classes; and the difference. Entry (p, q) of the result is therefore
  Gcn.logSoftmaxAt of the block, row p, class q: the same expression the specification gives for that row.
-/
import proofs.«159459_j77163382440451_1_alg».proof.Proof.Gen.KernelIdeal.Skeleton
import proofs.«159459_j77163382440451_1_alg».proof.Proof.GcnRow
import proofs.«159459_j77163382440451_1_alg».proof.Proof.Classify
import proofs.«159459_j77163382440451_1_alg».proof.Proof.LibLayoutColumn
import Idealize.ShloMosaic.Lib.ValueLayout
import Idealize.ShloMosaic.PureOps.Ideal.Laws

noncomputable section

open scoped BigOperators

namespace Cert.KernelIdeal.Classify

open Cert.KernelIdeal Cert.KernelIdeal.Gen Idealize.ShloMosaic Idealize.ShloMosaic.ValueIdx

/-! ## The body's value in four named pieces -/

/-- The hidden units of the block: the bias row added to every row, clamped below at zero, in the matmul's operand format. -/
def hiddenBlock (x0 : Vec Ideal S5000x16 .f32) (x1 : Vec Ideal S1x16 .f32) : FVec Ideal S5000x16 .bf16 :=
  truncf .bf16 (maximumf (addf (shapeCast S5000x16 x0 shapeCasts_S5000x16_S5000x16)
      (broadcastTo S5000x16 (shapeCast S1x16 x1 shapeCasts_S1x16_S1x16) broadcasts_S1x16_S5000x16))
    (broadcast S5000x16 (Scalar.ofBits .f32 0x00000000#32))) bitsLt_bf16_f32

/-- The scores of the block: the hidden units against the weights, plus the class-bias row on every row. -/
def scoreBlock (x0 : Vec Ideal S5000x16 .f32) (x1 : Vec Ideal S1x16 .f32) (x2 : Vec Ideal S16x8 .f32) (x3 : Vec Ideal S1x8 .f32) :
    FVec Ideal S5000x8 .f32 :=
  addf (matmul dot_S5000x16_S16x8_S5000x8_1_0_0_1_n_n none (hiddenBlock x0 x1) (truncf .bf16 x2 bitsLt_bf16_f32)
      (constant S5000x8 .f32 0x00000000#32))
    (broadcastTo S5000x8 (shapeCast S1x8 x3 shapeCasts_S1x8_S1x8) broadcasts_S1x8_S5000x8)

/-- The row maximum of a 5000 x 8 block, kept as a column and repeated along the eight classes. -/
def rowMaxBlock (z : FVec Ideal S5000x8 .f32) : FVec Ideal S5000x8 .f32 :=
  broadcastTo S5000x8
    (shapeCast S5000x1 (multiReduction .maximumf [1] S5000 z 0xFF800000#32 reduces_S5000x8_S5000 (.inl rfl) rfl) shapeCasts_S5000_S5000x1)
    broadcasts_S5000x1_S5000x8

/-- The logarithm of the row sum of exponentials of a 5000 x 8 block, kept as a column and repeated along the classes. -/
def logSumExpBlock (s : FVec Ideal S5000x8 .f32) : FVec Ideal S5000x8 .f32 :=
  broadcastTo S5000x8
    (log (shapeCast S5000x1 (multiReduction .add [1] S5000 (exp s) 0x00000000#32 reduces_S5000x8_S5000 (.inl rfl) rfl) shapeCasts_S5000_S5000x1))
    broadcasts_S5000x1_S5000x8

/-- The row-wise log-softmax of a block of scores, as the body takes it. -/
def logSoftmaxBlock (z : FVec Ideal S5000x8 .f32) : FVec Ideal S5000x8 .f32 :=
  subf (subf z (rowMaxBlock z)) (logSumExpBlock (subf z (rowMaxBlock z)))

/-- The body's stored value is the log-softmax of the scores of its four loads: the same operations in the same order. -/
theorem pay_eq (x0 : Vec Ideal S5000x16 .f32) (x1 : Vec Ideal S1x16 .f32) (x2 : Vec Ideal S16x8 .f32) (x3 : Vec Ideal S1x8 .f32) :
    k2_pay1 (F := Ideal) x0 x1 x2 x3 = logSoftmaxBlock (scoreBlock x0 x1 x2 x3) := rfl

/-! ## Each piece at an index -/

/-- The f32 word of negative infinity is the bottom element of the extended reals. -/
theorem ofBits_negInf : Ideal.ofBits .f32 0xFF800000#32 = ⊥ := by simp [Ideal.ofBits, Ideal.ieee]

/-- The elementwise exponential and logarithm at an index are the extended-real ones of the element. -/
theorem exp_apply {s : Shape} (x : FVec Ideal s .f32) (i : s.Idx) : exp x i = Ideal.exp (x i) := rfl
theorem log_apply {s : Shape} (x : FVec Ideal s .f32) (i : s.Idx) : log x i = Ideal.log (x i) := rfl

/-- Row p of a 5000 x 8 block, with k inserted on the class axis, is the entry (p, k). -/
theorem lift_row (p : Fin 5000) (k : Fin 8) : reduces_S5000x8_S5000.lift (ix1 p) k = ix2 p k :=
  funext fun a => Fin.ext (by match a with | ⟨0, _⟩ => rfl | ⟨1, _⟩ => rfl)

/-- A hidden unit of the block at (p, k). -/
theorem hiddenBlock_apply (x0 : Vec Ideal S5000x16 .f32) (x1 : Vec Ideal S1x16 .f32) (p : Fin 5000) (k : Fin 16) :
    hiddenBlock x0 x1 (ix2 p k) = Gcn.hidden x0 (Gcn.row x1) p k := by
  unfold hiddenBlock Gcn.hidden Gcn.row
  refine (truncf_apply (φ := .f32) (ψ := .bf16) _ bitsLt_bf16_f32 (ix2 p k)).trans ?_
  refine (maximumf_apply _ _ (ix2 p k)).trans ?_
  refine congrArg₂ max ?_ Ideal.ofBits_zero_f32
  refine (addf_apply _ _ (ix2 p k)).trans ?_
  refine congrArg₂ (· + ·) ?_ ?_
  · rw [shapeCast_self]
  · refine (broadcastTo_1b_ab_apply _ broadcasts_S1x16_S5000x16 p k).trans ?_
    rw [shapeCast_self]

/-- The left operand's row coordinate at a contraction index is the output's row. -/
theorem lhs_row (i : S5000x8.Idx) (u : dot_S5000x16_S16x8_S5000x8_1_0_0_1_n_n.contr.Idx) :
    (dot_S5000x16_S16x8_S5000x8_1_0_0_1_n_n.lhsIdx i u 0).val = (i 0).val := by
  unfold DotDims.lhsIdx
  rw [dif_neg (show ¬(0 : Fin S5000x16.rank) ∈ dot_S5000x16_S16x8_S5000x8_1_0_0_1_n_n.lhsBatch by decide),
    dif_pos (show (0 : Fin S5000x16.rank) ∈ dot_S5000x16_S16x8_S5000x8_1_0_0_1_n_n.lhsNonContracting by decide)]
  rfl

/-- The right operand's column coordinate at a contraction index is the output's column. -/
theorem rhs_col (i : S5000x8.Idx) (u : dot_S5000x16_S16x8_S5000x8_1_0_0_1_n_n.contr.Idx) :
    (dot_S5000x16_S16x8_S5000x8_1_0_0_1_n_n.rhsIdx i u 1).val = (i 1).val := by
  unfold DotDims.rhsIdx
  rw [dif_neg (show ¬(1 : Fin S16x8.rank) ∈ dot_S5000x16_S16x8_S5000x8_1_0_0_1_n_n.rhsBatch by decide),
    dif_pos (show (1 : Fin S16x8.rank) ∈ dot_S5000x16_S16x8_S5000x8_1_0_0_1_n_n.rhsNonContracting by decide)]
  rfl

/-- The product accumulated onto zero, at (p, q): the sum over the sixteen hidden units of the unit times its weight. -/
theorem matmul_apply (h : FVec Ideal S5000x16 .bf16) (w : FVec Ideal S16x8 .bf16) (p : Fin 5000) (q : Fin 8) :
    matmul (F := Ideal) dot_S5000x16_S16x8_S5000x8_1_0_0_1_n_n none h w (constant S5000x8 .f32 0x00000000#32) (ix2 p q)
      = ∑ k : Fin 16, h (ix2 p k) * w (ix2 k q) := by
  simp only [matmul]
  rw [Ideal.matmul_constant_zero_apply, ← Equiv.sum_comp (ValueIdx.contrEquiv1 dot_S5000x16_S16x8_S5000x8_1_0_0_1_n_n 16 rfl rfl).symm]
  refine Finset.sum_congr rfl fun k _ => ?_
  have hk := ValueIdx.contrEquiv1_symm_val dot_S5000x16_S16x8_S5000x8_1_0_0_1_n_n 16 rfl rfl k
  have el : dot_S5000x16_S16x8_S5000x8_1_0_0_1_n_n.lhsIdx (ix2 p q)
      ((ValueIdx.contrEquiv1 dot_S5000x16_S16x8_S5000x8_1_0_0_1_n_n 16 rfl rfl).symm k) = ix2 p k :=
    funext fun a => Fin.ext (by
      match a with
      | ⟨0, _⟩ => exact lhs_row _ _
      | ⟨1, _⟩ => exact (dot_S5000x16_S16x8_S5000x8_1_0_0_1_n_n.lhsIdx_val_of_single rfl _ _).trans hk)
  have er : dot_S5000x16_S16x8_S5000x8_1_0_0_1_n_n.rhsIdx (ix2 p q)
      ((ValueIdx.contrEquiv1 dot_S5000x16_S16x8_S5000x8_1_0_0_1_n_n 16 rfl rfl).symm k) = ix2 k q :=
    funext fun a => Fin.ext (by
      match a with
      | ⟨0, _⟩ => exact (dot_S5000x16_S16x8_S5000x8_1_0_0_1_n_n.rhsIdx_val_of_single rfl _ _).trans hk
      | ⟨1, _⟩ => exact rhs_col _ _)
  rw [el, er]

/-- A score of the block at (p, q). -/
theorem scoreBlock_apply (x0 : Vec Ideal S5000x16 .f32) (x1 : Vec Ideal S1x16 .f32) (x2 : Vec Ideal S16x8 .f32)
    (x3 : Vec Ideal S1x8 .f32) (p : Fin 5000) (q : Fin 8) :
    scoreBlock x0 x1 x2 x3 (ix2 p q) = Gcn.score x0 (Gcn.row x1) x2 (Gcn.row x3) p q := by
  unfold scoreBlock Gcn.score
  refine (addf_apply _ _ (ix2 p q)).trans ?_
  refine congrArg₂ (· + ·) ?_ ?_
  · refine (matmul_apply _ _ p q).trans (Finset.sum_congr rfl fun k _ => ?_)
    exact congrArg₂ (· * ·) (hiddenBlock_apply x0 x1 p k) (truncf_apply (φ := .f32) (ψ := .bf16) x2 bitsLt_bf16_f32 (ix2 k q))
  · refine (broadcastTo_1b_ab_apply _ broadcasts_S1x8_S5000x8 p q).trans ?_
    rw [shapeCast_self]
    rfl

/-- A fold of the float maximum is the fold of max, and folds of equal families from equal starts are equal. -/
theorem fold_max_congr {n : Nat} (b b' : EReal) (f f' : Fin n → EReal) (hb : b = b') (hf : ∀ k, f k = f' k) :
    (Finset.univ : Finset (Fin n)).fold max b f = (Finset.univ : Finset (Fin n)).fold max b' f' := by
  subst hb
  obtain rfl : f = f' := funext hf
  rfl

/-- The repeated row maximum at (p, q): the fold of max over row p from the bottom element. -/
theorem rowMaxBlock_apply (z : FVec Ideal S5000x8 .f32) (p : Fin 5000) (q : Fin 8) :
    rowMaxBlock z (ix2 p q) = (Finset.univ : Finset (Fin 8)).fold max ⊥ (fun q' => z (ix2 p q')) := by
  unfold rowMaxBlock
  refine (Cert.Lib.Layout.broadcastTo_a1_ab_apply _ broadcasts_S5000x1_S5000x8 p q).trans ?_
  refine (Cert.Lib.Layout.shapeCast_a_a1_apply _ shapeCasts_S5000_S5000x1 p (0 : Fin 1)).trans ?_
  refine (Ideal.multiReduction_maximumf_single z 0xFF800000#32 reduces_S5000x8_S5000 (.inl rfl) rfl (ix1 p)).trans ?_
  exact fold_max_congr _ _ _ _ ofBits_negInf (fun k => congrArg z (lift_row p k))

/-- The repeated logarithm of the row sum of exponentials at (p, q). -/
theorem logSumExpBlock_apply (s : FVec Ideal S5000x8 .f32) (p : Fin 5000) (q : Fin 8) :
    logSumExpBlock s (ix2 p q) = Ideal.log (∑ q' : Fin 8, Ideal.exp (s (ix2 p q'))) := by
  unfold logSumExpBlock
  refine (Cert.Lib.Layout.broadcastTo_a1_ab_apply _ broadcasts_S5000x1_S5000x8 p q).trans ?_
  refine (log_apply _ _).trans (congrArg Ideal.log ?_)
  refine (Cert.Lib.Layout.shapeCast_a_a1_apply _ shapeCasts_S5000_S5000x1 p (0 : Fin 1)).trans ?_
  refine (Ideal.multiReduction_add_single (exp s) 0x00000000#32 reduces_S5000x8_S5000 (.inl rfl) rfl (ix1 p)).trans ?_
  exact Finset.sum_congr rfl fun k _ => (exp_apply s _).trans (congrArg (fun i => Ideal.exp (s i)) (lift_row p k))

/-- The block's log-softmax at (p, q), for any block of scores. -/
theorem logSoftmaxBlock_apply (z : FVec Ideal S5000x8 .f32) (p : Fin 5000) (q : Fin 8) :
    logSoftmaxBlock z (ix2 p q)
      = (z (ix2 p q) - (Finset.univ : Finset (Fin 8)).fold max ⊥ (fun q' => z (ix2 p q')))
        - Ideal.log (∑ q' : Fin 8, Ideal.exp (z (ix2 p q') - (Finset.univ : Finset (Fin 8)).fold max ⊥ (fun q'' => z (ix2 p q'')))) := by
  have hs : ∀ q' : Fin 8, subf z (rowMaxBlock z) (ix2 p q')
      = z (ix2 p q') - (Finset.univ : Finset (Fin 8)).fold max ⊥ (fun q'' => z (ix2 p q'')) := fun q' =>
    (subf_apply _ _ (ix2 p q')).trans (congrArg (z (ix2 p q') - ·) (rowMaxBlock_apply z p q'))
  unfold logSoftmaxBlock
  refine (subf_apply _ _ (ix2 p q)).trans ?_
  refine congrArg₂ (· - ·) (hs q) ?_
  refine (logSumExpBlock_apply _ p q).trans (congrArg Ideal.log (Finset.sum_congr rfl fun q' _ => ?_))
  exact congrArg Ideal.exp (hs q')

/-! ## The stored value at an index -/

/-- ENTRY (p, q) OF WHAT THE BODY STORES: the specification's log-softmax entry of the loaded block's row p and class q,
    with the two one-row operands read as vectors. -/
theorem pay_apply (x0 : Vec Ideal S5000x16 .f32) (x1 : Vec Ideal S1x16 .f32) (x2 : Vec Ideal S16x8 .f32) (x3 : Vec Ideal S1x8 .f32)
    (p : Fin 5000) (q : Fin 8) :
    k2_pay1 (F := Ideal) x0 x1 x2 x3 (ix2 p q) = Gcn.logSoftmaxAt x0 (Gcn.row x1) x2 (Gcn.row x3) p q := by
  rw [pay_eq, logSoftmaxBlock_apply]
  unfold Gcn.logSoftmaxAt Gcn.shifted Gcn.scoreMax
  simp only [scoreBlock_apply]

end Cert.KernelIdeal.Classify

end
-- ==== Proof.ClassifyKernel.lean ====
/-
  The classifier region's output array after the region: every point of the grid stores, for its 5000 rows, the
  specification's log-softmax entries of the block it loaded; that block is rows 5000 t .. 5000 t + 4999 of the hidden
  array, and the bias rows and the weights are loaded whole; an entry of the specification depends on the hidden array
  only through its own row. So the whole output array is Gcn.classify of the four arrays as the region finds them.
-/
import proofs.«159459_j77163382440451_1_alg».proof.Proof.ClassifyBlocks
import proofs.«159459_j77163382440451_1_alg».proof.Proof.ClassifyPay

noncomputable section

open scoped BigOperators

namespace Cert.KernelIdeal.Classify

open Cert.KernelIdeal Cert.KernelIdeal.Gen Idealize.ShloMosaic Idealize.ShloMosaic.TcCoe Idealize.SL.Sem Idealize.ShloMosaic.ValueIdx

/-- What point t stores at (p, q) is the specification's entry of row 5000 t + p and class q. -/
theorem point_apply (V : (c : Dev nD) → (b : Ref sig .tc) → Buf (Elt Ideal) ((c : Thread nD τ).loc b)) (c : Dev nD)
    (t : Fin cfg2.N) (p : Fin 5000) (q : Fin 8) (r : Fin 100000) (hr : r.val = 5000 * t.val + p.val) :
    k2_pay1 (F := Ideal) (iblk2 V c 0 t) (iblk2 V c 1 t) (iblk2 V c 2 t) (iblk2 V c 3 t) (ix2 p q)
      = Gcn.classify (V c main_v58) (Gcn.row (V c main_v59)) (V c main_arg6) (Gcn.row (V c main_v60)) (ix2 r q) :=
  (pay_apply (iblk2 V c 0 t) (iblk2 V c 1 t) (iblk2 V c 2 t) (iblk2 V c 3 t) p q).trans
    (Gcn.logSoftmaxAt_congr_all (iblk2 V c 0 t) (V c main_v58) (Gcn.row (iblk2 V c 1 t)) (Gcn.row (V c main_v59))
      (iblk2 V c 2 t) (V c main_arg6) (Gcn.row (iblk2 V c 3 t)) (Gcn.row (V c main_v60)) p r
      (fun k => ClassifyBlocks.inblock_apply V c t p k r hr)
      (fun k => ClassifyBlocks.bias16block_apply V c t (0 : Fin 1) k)
      (fun k j => ClassifyBlocks.wblock_apply V c t k j)
      (fun j => ClassifyBlocks.bias8block_apply V c t (0 : Fin 1) j) q)

/-- THE OUTPUT ARRAY of the classifier region is the specification's classifier of the region's four input arrays. -/
theorem final (V : (c : Dev nD) → (b : Ref sig .tc) → Buf (Elt Ideal) ((c : Thread nD τ).loc b)) (c : Dev nD) :
    (Gen.dat2 (F := Ideal) V c).arrAt 4 cfg2.N
      = Gcn.classify (V c main_v58) (Gcn.row (V c main_v59)) (V c main_arg6) (Gcn.row (V c main_v60)) :=
  ClassifyBlocks.final_of_point V c _ (point_apply V c)

end Cert.KernelIdeal.Classify

end
-- ==== Proof.ClassifyRefLogits.lean ====
/-
  The reference's class scores read entry by entry: the bias added to every row and the clamp at zero give the hidden
  unit max (a (r, k) + b k) 0; the product with the weights is the sum over the sixteen hidden units; the class bias is
  added to every row. So the reference's scores at (r, j) are Gcn.score a b w bc r j.
-/
import proofs.«159459_j77163382440451_1_alg».proof.Proof.RefOps
import proofs.«159459_j77163382440451_1_alg».proof.Proof.Classify
import Idealize.ShloMosaic.Lib.Pipeline.Value
import Idealize.ShloMosaic.PureOps.Ideal.Laws

noncomputable section

open scoped BigOperators

namespace Cert.ReferenceIdeal.Classify

open Cert.ReferenceIdeal Cert.ReferenceIdeal.Gen Idealize.ShloMosaic Idealize.ShloMosaic.ValueIdx

/-- The bias of length 16, laid out as one row and repeated down the rows, reads at (r, k) the bias at k. -/
theorem bias16_apply (b : (⟨S16, .f32⟩ : BufTy).Contents (Elt Ideal)) (r : Fin 100000) (k : Fin 16) :
    broadcastInDim S100000x16 ![0, 1] bcast_S1x16_S100000x16_0_1 (broadcastInDim S1x16 ![1] bcast_S16_S1x16_1 b) (ix2 r k)
      = b (ix1 k) := by
  refine (broadcastInDim_apply _ bcast_S1x16_S100000x16_0_1 _ (ix2 r k) (ix2 (0 : Fin 1) k) (fun a => ?_)).trans ?_
  · match a with
    | ⟨0, _⟩ => show 0 = if (1 : Nat) = 1 then 0 else r.val; rw [if_pos rfl]
    | ⟨1, _⟩ => show k.val = if (16 : Nat) = 1 then 0 else k.val; rw [if_neg (by decide)]
  · refine broadcastInDim_apply _ bcast_S16_S1x16_1 b (ix2 (0 : Fin 1) k) (ix1 k) (fun a => ?_)
    match a with
    | ⟨0, _⟩ => show k.val = if (16 : Nat) = 1 then 0 else k.val; rw [if_neg (by decide)]

/-- The bias of length 8, laid out as one row and repeated down the rows, reads at (r, j) the bias at j. -/
theorem bias8_apply (bc : (⟨S8, .f32⟩ : BufTy).Contents (Elt Ideal)) (r : Fin 100000) (j : Fin 8) :
    broadcastInDim S100000x8 ![0, 1] bcast_S1x8_S100000x8_0_1 (broadcastInDim S1x8 ![1] bcast_S8_S1x8_1 bc) (ix2 r j)
      = bc (ix1 j) := by
  refine (broadcastInDim_apply _ bcast_S1x8_S100000x8_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (8 : Nat) = 1 then 0 else j.val; rw [if_neg (by decide)]
  · refine broadcastInDim_apply _ bcast_S8_S1x8_1 bc (ix2 (0 : Fin 1) j) (ix1 j) (fun a => ?_)
    match a with
    | ⟨0, _⟩ => show j.val = if (8 : Nat) = 1 then 0 else j.val; rw [if_neg (by decide)]

/-- The hidden unit of the reference: the bias added and the sum clamped below at zero. -/
theorem relu16_apply (a : (⟨S100000x16, .f32⟩ : BufTy).Contents (Elt Ideal)) (b : (⟨S16, .f32⟩ : BufTy).Contents (Elt Ideal))
    (r : Fin 100000) (k : Fin 16) : Ops.relu16 (F := Ideal) a b (ix2 r k) = Gcn.hidden a b r k := by
  unfold Ops.relu16 Gcn.hidden
  show max (a (ix2 r k) + broadcastInDim S100000x16 ![0, 1] bcast_S1x16_S100000x16_0_1
      (broadcastInDim S1x16 ![1] bcast_S16_S1x16_1 b) (ix2 r k))
      (broadcastInDim S100000x16 ![] bcast_S_S100000x16 (constant (F := Ideal) S_ .f32 0x00000000#32) (ix2 r k)) = _
  rw [bias16_apply,
    broadcastInDim_apply _ bcast_S_S100000x16 (constant (F := Ideal) S_ .f32 0x00000000#32) (ix2 r k) (fun a => a.elim0)
      (fun a => a.elim0)]
  show max (a (ix2 r k) + b (ix1 k)) (Ideal.ofBits .f32 0x00000000#32) = _
  rw [Ideal.ofBits_zero_f32]

/-- The left operand's row coordinate at a contraction index is the output's row. -/
theorem lhs_row (i : S100000x8.Idx) (q : dot_S100000x16_S16x8_S100000x8_1_0_0_1_n_n.contr.Idx) :
    (dot_S100000x16_S16x8_S100000x8_1_0_0_1_n_n.lhsIdx i q 0).val = (i 0).val := by
  unfold DotDims.lhsIdx
  rw [dif_neg (show ¬(0 : Fin S100000x16.rank) ∈ dot_S100000x16_S16x8_S100000x8_1_0_0_1_n_n.lhsBatch by decide),
    dif_pos (show (0 : Fin S100000x16.rank) ∈ dot_S100000x16_S16x8_S100000x8_1_0_0_1_n_n.lhsNonContracting by decide)]
  rfl

/-- The right operand's column coordinate at a contraction index is the output's column. -/
theorem rhs_col (i : S100000x8.Idx) (q : dot_S100000x16_S16x8_S100000x8_1_0_0_1_n_n.contr.Idx) :
    (dot_S100000x16_S16x8_S100000x8_1_0_0_1_n_n.rhsIdx i q 1).val = (i 1).val := by
  unfold DotDims.rhsIdx
  rw [dif_neg (show ¬(1 : Fin S16x8.rank) ∈ dot_S100000x16_S16x8_S100000x8_1_0_0_1_n_n.rhsBatch by decide),
    dif_pos (show (1 : Fin S16x8.rank) ∈ dot_S100000x16_S16x8_S100000x8_1_0_0_1_n_n.rhsNonContracting by decide)]
  rfl

/-- The product with the weights at (r, j): the sum over the sixteen hidden units of the unit times its weight. -/
theorem dot_apply (h : FVec Ideal S100000x16 .f32) (w : FVec Ideal S16x8 .f32)
    (r : Fin 100000) (j : Fin 8) :
    Host.dotGeneral (F := Ideal) dot_S100000x16_S16x8_S100000x8_1_0_0_1_n_n none h w (ix2 r j)
      = ∑ k : Fin 16, h (ix2 r k) * w (ix2 k j) := by
  simp only [Host.dotGeneral]
  rw [Ideal.dotGeneral_apply, ← Equiv.sum_comp (ValueIdx.contrEquiv1 dot_S100000x16_S16x8_S100000x8_1_0_0_1_n_n 16 rfl rfl).symm]
  refine Finset.sum_congr rfl fun k _ => ?_
  have hk := ValueIdx.contrEquiv1_symm_val dot_S100000x16_S16x8_S100000x8_1_0_0_1_n_n 16 rfl rfl k
  have el : dot_S100000x16_S16x8_S100000x8_1_0_0_1_n_n.lhsIdx (ix2 r j)
      ((ValueIdx.contrEquiv1 dot_S100000x16_S16x8_S100000x8_1_0_0_1_n_n 16 rfl rfl).symm k) = ix2 r k :=
    funext fun a => Fin.ext (by
      match a with
      | ⟨0, _⟩ => exact lhs_row _ _
      | ⟨1, _⟩ => exact (dot_S100000x16_S16x8_S100000x8_1_0_0_1_n_n.lhsIdx_val_of_single rfl _ _).trans hk)
  have er : dot_S100000x16_S16x8_S100000x8_1_0_0_1_n_n.rhsIdx (ix2 r j)
      ((ValueIdx.contrEquiv1 dot_S100000x16_S16x8_S100000x8_1_0_0_1_n_n 16 rfl rfl).symm k) = ix2 k j :=
    funext fun a => Fin.ext (by
      match a with
      | ⟨0, _⟩ => exact (dot_S100000x16_S16x8_S100000x8_1_0_0_1_n_n.rhsIdx_val_of_single rfl _ _).trans hk
      | ⟨1, _⟩ => exact rhs_col _ _)
  rw [el, er]

/-- The reference's class scores at (r, j). -/
theorem logits_apply (a : (⟨S100000x16, .f32⟩ : BufTy).Contents (Elt Ideal)) (b : (⟨S16, .f32⟩ : BufTy).Contents (Elt Ideal))
    (w : (⟨S16x8, .f32⟩ : BufTy).Contents (Elt Ideal)) (bc : (⟨S8, .f32⟩ : BufTy).Contents (Elt Ideal))
    (r : Fin 100000) (j : Fin 8) : Ops.logits (F := Ideal) a b w bc (ix2 r j) = Gcn.score a b w bc r j := by
  unfold Ops.logits Gcn.score
  show Host.dotGeneral (F := Ideal) dot_S100000x16_S16x8_S100000x8_1_0_0_1_n_n none (Ops.relu16 a b) w (ix2 r j)
      + broadcastInDim S100000x8 ![0, 1] bcast_S1x8_S100000x8_0_1 (broadcastInDim S1x8 ![1] bcast_S8_S1x8_1 bc) (ix2 r j) = _
  rw [dot_apply, bias8_apply]
  exact congrArg (· + bc (ix1 j)) (Finset.sum_congr rfl fun k _ => by rw [relu16_apply])

end Cert.ReferenceIdeal.Classify

end
-- ==== Proof.ClassifyRefSoftmax.lean ====
/-
  The reference's row-wise log-softmax read entry by entry, for any 100000 x 8 array z of scores:
    the row maximum at r is the fold of max over the eight classes from the bottom element (the further join with the
    bottom element changes nothing);
    the shifted scores at (r, j) are z (r, j) minus that maximum;
    the result at (r, j) is the shifted score minus log of the sum over the eight classes of exp of the shifted scores.
-/
import proofs.«159459_j77163382440451_1_alg».proof.Proof.RefOps
import Idealize.ShloMosaic.Lib.ValueIdx
import Idealize.ShloMosaic.Lib.Pipeline.Value
import Idealize.ShloMosaic.PureOps.Ideal.Laws

noncomputable section

open scoped BigOperators

namespace Cert.ReferenceIdeal.Classify

open Cert.ReferenceIdeal Cert.ReferenceIdeal.Gen Idealize.ShloMosaic Idealize.ShloMosaic.ValueIdx

/-- The f32 word of negative infinity is the bottom element of the extended reals. -/
theorem ofBits_negInf : Ideal.ofBits .f32 0xFF800000#32 = ⊥ := by simp [Ideal.ofBits, Ideal.ieee]

/-- The host's logarithm and exponential at an index are the extended-real ones of the element. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- A fold of the float maximum is the fold of max, and folds of equal families from equal starts are equal. -/
theorem fold_max_congr {n : Nat} (b b' : EReal) (f f' : Fin n → EReal) (hb : b = b') (hf : ∀ k, f k = f' k) :
    (Finset.univ : Finset (Fin n)).fold (FloatOps.maximumf (F := Ideal) (φ := .f32)) b f
      = (Finset.univ : Finset (Fin n)).fold max b' f' := by
  subst hb
  obtain rfl : f = f' := funext hf
  rfl

/-- Row r of a 100000 x 8 array, with k inserted on the class axis, is the entry (r, k). -/
theorem lift_row (hR : S100000x8.Reduces [1] S100000) (r : Fin 100000) (k : Fin 8) :
    hR.lift (ix1 r) k = ix2 r k :=
  funext fun a => Fin.ext (by match a with | ⟨0, _⟩ => rfl | ⟨1, _⟩ => rfl)

/-- A vector of length 100000 laid out as a column reads, at (r, u), the vector at r. -/
theorem column_apply (v : (⟨S100000, .f32⟩ : BufTy).Contents (Elt Ideal)) (r : Fin 100000) (u : Fin 1) :
    broadcastInDim S100000x1 ![0] bcast_S100000_S100000x1_0 v (ix2 r u) = v (ix1 r) := by
  refine broadcastInDim_apply _ bcast_S100000_S100000x1_0 v (ix2 r u) (ix1 r) (fun a => ?_)
  match a with
  | ⟨0, _⟩ => show r.val = if (100000 : Nat) = 1 then 0 else r.val; rw [if_neg (by decide)]

/-- A column repeated along the eight classes reads, at (r, j), the column at row r. -/
theorem spread_apply (c : (⟨S100000x1, .f32⟩ : BufTy).Contents (Elt Ideal)) (r : Fin 100000) (j : Fin 8) :
    broadcastInDim S100000x8 ![0, 1] bcast_S100000x1_S100000x8_0_1 c (ix2 r j) = c (ix2 r (0 : Fin 1)) := by
  refine broadcastInDim_apply _ bcast_S100000x1_S100000x8_0_1 c (ix2 r j) (ix2 r (0 : Fin 1)) (fun a => ?_)
  match a with
  | ⟨0, _⟩ => show r.val = if (100000 : Nat) = 1 then 0 else r.val; rw [if_neg (by decide)]
  | ⟨1, _⟩ => show 0 = if (1 : Nat) = 1 then 0 else j.val; rw [if_pos rfl]

/-- The reference's row maximum: the fold of max over the row from the bottom element. -/
theorem rowMax_apply (z : (⟨S100000x8, .f32⟩ : BufTy).Contents (Elt Ideal)) (r : Fin 100000) :
    Ops.rowMax (F := Ideal) z (ix1 r) = (Finset.univ : Finset (Fin 8)).fold max ⊥ (fun j => z (ix2 r j)) := by
  have hR : S100000x8.Reduces [1] S100000 := by decide
  unfold Ops.rowMax
  refine (maximumf_apply _ _ (ix1 r)).trans ?_
  refine (congrArg₂ max ?_ ?_).trans (max_bot_left _)
  · refine (broadcastInDim_apply _ bcast_S_S100000 _ (ix1 r) (fun a => a.elim0) (fun a => a.elim0)).trans ?_
    exact ofBits_negInf
  · refine (Host.reduce_eq_fold_single (FloatOps.maximumf (F := Ideal) (φ := .f32)) z _ reducesTo_S100000x8_S100000_d1 hR h_S_ (ix1 r)).trans ?_
    exact fold_max_congr _ _ _ _ ofBits_negInf (fun k => congrArg z (lift_row hR r k))

/-- The reference's shifted scores: the score minus the row maximum. -/
theorem shifted_apply (z : (⟨S100000x8, .f32⟩ : BufTy).Contents (Elt Ideal)) (r : Fin 100000) (j : Fin 8) :
    Ops.shifted (F := Ideal) z (ix2 r j) = z (ix2 r j) - (Finset.univ : Finset (Fin 8)).fold max ⊥ (fun j' => z (ix2 r j')) := by
  unfold Ops.shifted
  refine (subf_apply _ _ (ix2 r j)).trans ?_
  refine congrArg (z (ix2 r j) - ·) ?_
  refine (spread_apply _ r j).trans ?_
  refine (column_apply _ r 0).trans ?_
  exact rowMax_apply z r

/-- The reference's row sum of exponentials: zero plus the sum over the eight classes. -/
theorem sumExp_apply (s : (⟨S100000x8, .f32⟩ : BufTy).Contents (Elt Ideal)) (r : Fin 100000) :
    Host.reduceAdd (F := Ideal) (Host.exp s) (constant (F := Ideal) S_ .f32 0x00000000#32) reducesTo_S100000x8_S100000_d1 h_S_ (ix1 r)
      = ∑ j' : Fin 8, Ideal.exp (s (ix2 r j')) := by
  have hR : S100000x8.Reduces [1] S100000 := by decide
  simp only [Host.reduceAdd, Ideal.hostReduceAdd_def]
  refine (Ideal.hostReduceAdd_single reducesTo_S100000x8_S100000_d1 hR _ _ (ix1 r)).trans ?_
  refine (congrArg₂ (· + ·) Ideal.ofBits_zero_f32 (Finset.sum_congr rfl fun k _ => ?_)).trans (zero_add _)
  exact (hostExp_apply s _).trans (congrArg (fun i => Ideal.exp (s i)) (lift_row hR r k))

/-- The reference's log-softmax at (r, j). -/
theorem logSoftmax_apply (z : (⟨S100000x8, .f32⟩ : BufTy).Contents (Elt Ideal)) (r : Fin 100000) (j : Fin 8) :
    Ops.logSoftmax (F := Ideal) z (ix2 r j)
      = Ops.shifted (F := Ideal) z (ix2 r j) - Ideal.log (∑ j' : Fin 8, Ideal.exp (Ops.shifted (F := Ideal) z (ix2 r j'))) := by
  unfold Ops.logSoftmax
  refine (subf_apply _ _ (ix2 r j)).trans ?_
  refine congrArg (Ops.shifted (F := Ideal) z (ix2 r j) - ·) ?_
  refine (spread_apply _ r j).trans ?_
  refine (hostLog_apply _ _).trans (congrArg Ideal.log ?_)
  refine (column_apply _ r 0).trans ?_
  exact sumExp_apply _ r

end Cert.ReferenceIdeal.Classify

end
-- ==== Proof.ClassifyRef.lean ====
/-
  The reference's classifier is the specification's: its scores are Gcn.score (the bias, the clamp, the product with the
  weights, the class bias), its row maximum is the fold of max over the eight classes, and its log-softmax subtracts the
  maximum and then the logarithm of the row sum of exponentials, exactly as Gcn.logSoftmaxAt does.
-/
import proofs.«159459_j77163382440451_1_alg».proof.Proof.ClassifyRefLogits
import proofs.«159459_j77163382440451_1_alg».proof.Proof.ClassifyRefSoftmax

noncomputable section

open scoped BigOperators

namespace Cert.ReferenceIdeal.Classify

open Cert.ReferenceIdeal Cert.ReferenceIdeal.Gen Idealize.ShloMosaic Idealize.ShloMosaic.ValueIdx

/-- The reference's shifted scores at (r, j) are the specification's. -/
theorem shifted_logits (a : (⟨S100000x16, .f32⟩ : BufTy).Contents (Elt Ideal)) (b : (⟨S16, .f32⟩ : BufTy).Contents (Elt Ideal))
    (w : (⟨S16x8, .f32⟩ : BufTy).Contents (Elt Ideal)) (bc : (⟨S8, .f32⟩ : BufTy).Contents (Elt Ideal))
    (r : Fin 100000) (j : Fin 8) :
    Ops.shifted (F := Ideal) (Ops.logits (F := Ideal) a b w bc) (ix2 r j) = Gcn.shifted a b w bc r j := by
  refine (shifted_apply _ r j).trans ?_
  unfold Gcn.shifted Gcn.scoreMax
  simp only [logits_apply]

/-- THE REFERENCE'S CLASSIFIER IS THE SPECIFICATION'S, entry by entry. -/
theorem ref_eq (a : (⟨S100000x16, .f32⟩ : BufTy).Contents (Elt Ideal)) (b : (⟨S16, .f32⟩ : BufTy).Contents (Elt Ideal))
    (w : (⟨S16x8, .f32⟩ : BufTy).Contents (Elt Ideal)) (bc : (⟨S8, .f32⟩ : BufTy).Contents (Elt Ideal)) :
    Ops.classify (F := Ideal) a b w bc = Gcn.classify a b w bc := by
  funext i
  obtain ⟨r, j, rfl⟩ : ∃ (r : Fin 100000) (j : Fin 8), i = ix2 r j := ⟨i 0, i 1, eq_ix2 i⟩
  unfold Ops.classify
  refine (logSoftmax_apply _ r j).trans ?_
  rw [Gcn.classify_ix2]
  unfold Gcn.logSoftmaxAt
  simp only [shifted_logits]

end Cert.ReferenceIdeal.Classify

end
-- ==== Proof.KernelValue.lean ====
/-
  The idealized kernel's result as the staged network. At the third region's entry its input array holds the graph sum
  of the second layer's rows and its three small operands the last weights and the two biases as one-row matrices; the
  region leaves  logSoftmax (max (a + b2, 0) · Wc + bc)  of them in its result array, which is what the reference's
  operations for the classifier compute. Put together with the earlier boundaries, the result array after the run is
  the reference's staged network of the launch contents of the eight arguments.
-/
import proofs.«159459_j77163382440451_1_alg».proof.Proof.KernelFold
import proofs.«159459_j77163382440451_1_alg».proof.Proof.ClassifyKernel
import proofs.«159459_j77163382440451_1_alg».proof.Proof.ClassifyRef

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- After the third region the result array holds the whole network of the arguments' launch contents. -/
theorem at8_out : W8 m ρ c (Proc.devRef .tc main_v61) = (Cert.ReferenceIdeal.Ops.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine (W8_arr m ρ c 4).trans ((Classify.final (V7 m ρ) c).trans ?_)
  have ha : V7 m ρ c main_v58 = (Cert.ReferenceIdeal.Ops.agg16 (Cert.ReferenceIdeal.Ops.dense1 (Cert.ReferenceIdeal.Ops.agg32 (Cert.ReferenceIdeal.Ops.dense0 (m ((c.tc : Thread nD τ).loc main_arg0)) (m ((c.tc : Thread nD τ).loc main_arg2))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) (m ((c.tc : Thread nD τ).loc main_arg3)) (m ((c.tc : Thread nD τ).loc main_arg4))) (Cert.ReferenceIdeal.Ops.src (m ((c.tc : Thread nD τ).loc main_arg1))) (Cert.ReferenceIdeal.Ops.dst (m ((c.tc : Thread nD τ).loc main_arg1))) (Cert.ReferenceIdeal.Ops.norm (Cert.ReferenceIdeal.Ops.src (m ((c.tc : Thread nD τ).loc main_arg1))) (Cert.ReferenceIdeal.Ops.dst (m ((c.tc : Thread nD τ).loc main_arg1))))) := at7_agg m ρ c
  have hb : V7 m ρ c main_v59 = shapeCast S1x16 (m ((c.tc : Thread nD τ).loc main_arg5)) shapeCasts_S16_S1x16 := at7_bias m ρ c
  have hw : V7 m ρ c main_arg6 = (m ((c.tc : Thread nD τ).loc main_arg6)) := at7_arg6 m ρ c
  have hc : V7 m ρ c main_v60 = shapeCast S1x8 (m ((c.tc : Thread nD τ).loc main_arg7)) shapeCasts_S8_S1x8 := at7_cbias m ρ c
  have hr : Gcn.row (shapeCast S1x16 (m ((c.tc : Thread nD τ).loc main_arg5)) shapeCasts_S16_S1x16) = (m ((c.tc : Thread nD τ).loc main_arg5)) := Gcn.row_reshape _ _
  have hs : Gcn.row (shapeCast S1x8 (m ((c.tc : Thread nD τ).loc main_arg7)) shapeCasts_S8_S1x8) = (m ((c.tc : Thread nD τ).loc main_arg7)) := Gcn.row_reshape _ _
  rw [ha, hb, hw, hc, hr, hs]
  exact (Cert.ReferenceIdeal.Classify.ref_eq _ _ _ _).symm

end Cert.KernelIdeal.Fold

end
-- ==== Proof.RefStages.lean ====
/-
  The reference's result as the staged network. The reference's run states its result as one flat composition of its
  105 host operations over the argument arrays (every shared sub-result written out again at each use). That
  composition is, operation for operation, the staged function  classify (agg (dense1 (agg (dense0 x W1)) b1 W2)) b2 Wc bc
  over the edge ends and edge weights computed from the edge list: the two are one term once the stages' names are
  unfolded.
-/
import proofs.«159459_j77163382440451_1_alg».proof.Proof.RefRunP
import proofs.«159459_j77163382440451_1_alg».proof.Proof.RefGraph

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

set_option maxRecDepth 1000000 in
/-- The run's result term is the staged network of the launch contents of the eight arguments. -/
theorem result_eq (m : (ℓ : Loc nD τ sig) → Buf (Elt F) ℓ) (c : Dev nD) :
    Cert.ReferenceIdeal.ValueP.res_main_v70 m c
      = Ops.network (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v70
  rfl

end Cert.ReferenceIdeal.Stages

end
-- ==== Proof.lean ====
/-
  A two-layer graph convolution with a linear classifier and a row-wise log-softmax, on 100000 nodes and 3200000
  edges: the kernel program computes the three dense stages (x · W1;  max (· + b1, 0) · W2;  logSoftmax (max (· + b2, 0)
  · Wc + bc)) in three pipelined regions of twenty row blocks each, and between them gathers, scales and scatter-adds
  along the edges with the very host operations the reference uses; the reference computes the dense stages with whole
  dot products.

  The five claims. The two kernel programs' frames are the generated frame certificates. The reference's frame is its
  run with the result dropped. The idealization rewrote nothing, so "preserves" is trivial. For the algebraic claim both
  runs end with the result array holding ONE function of the arguments, the staged network

      classify (agg (dense1 (agg (dense0 x W1)) b1 W2)) b2 Wc bc        (agg over the edge ends and weights of e):

  the reference because its flat composition of operations is that term; the kernel because its buffers, followed
  boundary by boundary through the stretches and regions, hold at the end the third region's blocks, which cover the
  result array with the classifier's specification of the second graph sum — each region's specification being also
  what the reference's operations for that layer compute (a matrix product into a zero accumulator is the dot product,
  a lane reduction is the host's reduction, a change of float format is the identity on the extended reals). No step
  needs the inputs to be finite: the two sides perform the same operations in the same grouping.
-/
import proofs.«159459_j77163382440451_1_alg».proof.Defs
import proofs.«159459_j77163382440451_1_alg».proof.Proof.Gen.Kernel
import proofs.«159459_j77163382440451_1_alg».proof.Proof.Gen.Kernel.Frame
import proofs.«159459_j77163382440451_1_alg».proof.Proof.Gen.KernelIdeal
import proofs.«159459_j77163382440451_1_alg».proof.Proof.Gen.KernelIdeal.Frame
import proofs.«159459_j77163382440451_1_alg».proof.Proof.Gen.ReferenceIdeal
import proofs.«159459_j77163382440451_1_alg».proof.Proof.Gen.Pre_finite_inputs
import proofs.«159459_j77163382440451_1_alg».proof.Proof.KernelRun
import proofs.«159459_j77163382440451_1_alg».proof.Proof.KernelValue
import proofs.«159459_j77163382440451_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the staged network of those arguments in their
    result arrays. -/
theorem algebraic : Cert.algebraic_KernelIdeal_ReferenceIdeal := by
  intro m ρ m' ρ' _ hagree
  refine ⟨fun c => (Cert.ReferenceIdeal.Ops.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · exact (θ_run Cert.KernelIdeal.defs _ _).mono (fun _ h c => ⟨(h c).1.trans (Cert.KernelIdeal.Fold.at8_out m ρ c), (h c).2⟩)
      (Cert.KernelIdeal.Run.run_result (F := Ideal) m ρ)
  · refine (θ_run Cert.ReferenceIdeal.defs _ _).mono (fun _ h c => ⟨?_, (h c).2⟩)
      (Cert.ReferenceIdeal.ValueP.run (F := Ideal) m' ρ')
    obtain ⟨h0, h1, h2, h3, h4, h5, h6, h7⟩ := hagree c
    rw [(h c).1, Cert.ReferenceIdeal.Stages.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
